-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000 : Shape := ⟨1, ![5000000]⟩
abbrev S5000000x8 : Shape := ⟨2, ![5000000, 8]⟩
abbrev S5000000x6 : Shape := ⟨2, ![5000000, 6]⟩
abbrev S_ : Shape := ⟨0, ![]⟩

class Facts : Prop where
  bcast_S_S5000000 : S_.BroadcastsInDim S5000000 (![] : Fin 0 → Fin S5000000.rank)
  reducesTo_S5000000_S_d0 : S5000000.ReducesTo [0] S_
  h_S_ : 0 < S_.numel
  bcast_S_S5000000x8 : S_.BroadcastsInDim S5000000x8 (![] : Fin 0 → Fin S5000000x8.rank)
  reducesTo_S5000000x8_S_d0_1 : S5000000x8.ReducesTo [0, 1] S_
  bcast_S_S5000000x6 : S_.BroadcastsInDim S5000000x6 (![] : Fin 0 → Fin S5000000x6.rank)
  reducesTo_S5000000x6_S_d0_1 : S5000000x6.ReducesTo [0, 1] S_

variable [Facts]

def fn_part1 {F : FTy → Type} [FloatOps F] (main_arg4 : FVec F S5000000 .f32) (main_arg6 : FVec F S5000000x6 .f32) (main_v13 : IVec S_ 1) (main_v16 : IVec S5000000x6 1) : IVec S_ 1 :=
  let main_c_5 : IVec S_ 1 := constantI S_ 1 1#1
  let main_v17 : IVec S_ 1 := (fun x v => Host.reduce IntOp.andi x v reducesTo_S5000000x6_S_d0_1 h_S_) main_v16 main_c_5
  let main_v18 : IVec S_ 1 := andi main_v13 main_v17
  let main_v19 : FVec F S5000000 .f32 := Host.absf main_arg4
  let main_cst_6 : FVec F S_ .f32 := constant S_ .f32 0x7F800000#32
  let main_v20 : FVec F S5000000 .f32 := broadcastInDim S5000000 ![] bcast_S_S5000000 main_cst_6
  let main_v21 : IVec S5000000 1 := cmpf .olt main_v19 main_v20
  let main_c_7 : IVec S_ 1 := constantI S_ 1 1#1
  let main_v22 : IVec S_ 1 := (fun x v => Host.reduce IntOp.andi x v reducesTo_S5000000_S_d0 h_S_) main_v21 main_c_7
  let main_v23 : IVec S_ 1 := andi main_v18 main_v22
  let main_v24 : FVec F S5000000x6 .f32 := Host.absf main_arg6
  let main_cst_8 : FVec F S_ .f32 := constant S_ .f32 0x7F800000#32
  let main_v25 : FVec F S5000000x6 .f32 := broadcastInDim S5000000x6 ![] bcast_S_S5000000x6 main_cst_8
  let main_v26 : IVec S5000000x6 1 := cmpf .olt main_v24 main_v25
  let main_c_9 : IVec S_ 1 := constantI S_ 1 1#1
  let main_v27 : IVec S_ 1 := (fun x v => Host.reduce IntOp.andi x v reducesTo_S5000000x6_S_d0_1 h_S_) main_v26 main_c_9
  let main_v28 : IVec S_ 1 := andi main_v23 main_v27
  main_v28

def fn {F : FTy → Type} [FloatOps F] (main_arg0 : FVec F S5000000 .f32) (main_arg1 : FVec F S5000000 .f32) (main_arg2 : FVec F S5000000x8 .f32) (main_arg3 : FVec F S5000000x6 .f32) (main_arg4 : FVec F S5000000 .f32) (main_arg5 : IVec S5000000 32) (main_arg6 : FVec F S5000000x6 .f32) (main_arg7 : IVec S5000000 32) : IVec S_ 1 :=
  let main_v0 : FVec F S5000000 .f32 := Host.absf main_arg0
  let main_cst : FVec F S_ .f32 := constant S_ .f32 0x7F800000#32
  let main_v1 : FVec F S5000000 .f32 := broadcastInDim S5000000 ![] bcast_S_S5000000 main_cst
  let main_v2 : IVec S5000000 1 := cmpf .olt main_v0 main_v1
  let main_c : IVec S_ 1 := constantI S_ 1 1#1
  let main_v3 : IVec S_ 1 := (fun x v => Host.reduce IntOp.andi x v reducesTo_S5000000_S_d0 h_S_) main_v2 main_c
  let main_v4 : FVec F S5000000 .f32 := Host.absf main_arg1
  let main_cst_0 : FVec F S_ .f32 := constant S_ .f32 0x7F800000#32
  let main_v5 : FVec F S5000000 .f32 := broadcastInDim S5000000 ![] bcast_S_S5000000 main_cst_0
  let main_v6 : IVec S5000000 1 := cmpf .olt main_v4 main_v5
  let main_c_1 : IVec S_ 1 := constantI S_ 1 1#1
  let main_v7 : IVec S_ 1 := (fun x v => Host.reduce IntOp.andi x v reducesTo_S5000000_S_d0 h_S_) main_v6 main_c_1
  let main_v8 : IVec S_ 1 := andi main_v3 main_v7
  let main_v9 : FVec F S5000000x8 .f32 := Host.absf main_arg2
  let main_cst_2 : FVec F S_ .f32 := constant S_ .f32 0x7F800000#32
  let main_v10 : FVec F S5000000x8 .f32 := broadcastInDim S5000000x8 ![] bcast_S_S5000000x8 main_cst_2
  let main_v11 : IVec S5000000x8 1 := cmpf .olt main_v9 main_v10
  let main_c_3 : IVec S_ 1 := constantI S_ 1 1#1
  let main_v12 : IVec S_ 1 := (fun x v => Host.reduce IntOp.andi x v reducesTo_S5000000x8_S_d0_1 h_S_) main_v11 main_c_3
  let main_v13 : IVec S_ 1 := andi main_v8 main_v12
  let main_v14 : FVec F S5000000x6 .f32 := Host.absf main_arg3
  let main_cst_4 : FVec F S_ .f32 := constant S_ .f32 0x7F800000#32
  let main_v15 : FVec F S5000000x6 .f32 := broadcastInDim S5000000x6 ![] bcast_S_S5000000x6 main_cst_4
  let main_v16 : IVec S5000000x6 1 := cmpf .olt main_v14 main_v15
  fn_part1 (F := F) main_arg4 main_arg6 main_v13 main_v16
-- ==== Kernel.lean ====
abbrev S5000000 : Shape := ⟨1, ![5000000]⟩
abbrev S5000000x8 : Shape := ⟨2, ![5000000, 8]⟩
abbrev S5000000x6 : Shape := ⟨2, ![5000000, 6]⟩
abbrev S78125x384 : Shape := ⟨2, ![78125, 384]⟩
abbrev S78125x64 : Shape := ⟨2, ![78125, 64]⟩
abbrev S384 : Shape := ⟨1, ![384]⟩
abbrev S_ : Shape := ⟨0, ![]⟩
abbrev S384x1 : Shape := ⟨2, ![384, 1]⟩
abbrev S64 : Shape := ⟨1, ![64]⟩
abbrev S1x64 : Shape := ⟨2, ![1, 64]⟩
abbrev S384x64 : Shape := ⟨2, ![384, 64]⟩
abbrev S2048x384 : Shape := ⟨2, ![2048, 384]⟩
abbrev S2048x64 : Shape := ⟨2, ![2048, 64]⟩
abbrev S5000000x1 : Shape := ⟨2, ![5000000, 1]⟩
abbrev S5000000x2 : Shape := ⟨2, ![5000000, 2]⟩
abbrev S50000x2 : Shape := ⟨2, ![50000, 2]⟩
abbrev S50000x1 : Shape := ⟨2, ![50000, 1]⟩
abbrev S50000 : Shape := ⟨1, ![50000]⟩

abbrev nBuf : Space → Nat
  | .hbm => 74
  | .vmem => 13
  | .smem => 0
  | _ => 0

abbrev bufTy : (tb : Table) → Fin (tcTables nBuf tb) → BufTy
  | .hbm, ⟨0, _⟩ => ⟨S5000000, .f32⟩
  | .hbm, ⟨1, _⟩ => ⟨S5000000, .f32⟩
  | .hbm, ⟨2, _⟩ => ⟨S5000000x8, .f32⟩
  | .hbm, ⟨3, _⟩ => ⟨S5000000x6, .f32⟩
  | .hbm, ⟨4, _⟩ => ⟨S5000000, .f32⟩
  | .hbm, ⟨5, _⟩ => ⟨S5000000, .i32⟩
  | .hbm, ⟨6, _⟩ => ⟨S5000000x6, .f32⟩
  | .hbm, ⟨7, _⟩ => ⟨S5000000, .i32⟩
  | .hbm, ⟨8, _⟩ => ⟨S78125x384, .f32⟩
  | .hbm, ⟨9, _⟩ => ⟨S78125x384, .f32⟩
  | .hbm, ⟨10, _⟩ => ⟨S78125x64, .i32⟩
  | .hbm, ⟨11, _⟩ => ⟨S78125x64, .i32⟩
  | .hbm, ⟨12, _⟩ => ⟨S384, .i32⟩
  | .hbm, ⟨13, _⟩ => ⟨S_, .i32⟩
  | .hbm, ⟨14, _⟩ => ⟨S_, .i32⟩
  | .hbm, ⟨15, _⟩ => ⟨S384, .i32⟩
  | .hbm, ⟨16, _⟩ => ⟨S384, .i32⟩
  | .hbm, ⟨17, _⟩ => ⟨S384, .i32⟩
  | .hbm, ⟨18, _⟩ => ⟨S_, .i32⟩
  | .hbm, ⟨19, _⟩ => ⟨S384, .i32⟩
  | .hbm, ⟨20, _⟩ => ⟨S384, .i1⟩
  | .hbm, ⟨21, _⟩ => ⟨S384, .i32⟩
  | .hbm, ⟨22, _⟩ => ⟨S384, .i32⟩
  | .hbm, ⟨23, _⟩ => ⟨S_, .i32⟩
  | .hbm, ⟨24, _⟩ => ⟨S384, .i32⟩
  | .hbm, ⟨25, _⟩ => ⟨S384, .i1⟩
  | .hbm, ⟨26, _⟩ => ⟨S384, .i1⟩
  | .hbm, ⟨27, _⟩ => ⟨S_, .i32⟩
  | .hbm, ⟨28, _⟩ => ⟨S384, .i32⟩
  | .hbm, ⟨29, _⟩ => ⟨S384, .i32⟩
  | .hbm, ⟨30, _⟩ => ⟨S384, .i32⟩
  | .hbm, ⟨31, _⟩ => ⟨S384x1, .i32⟩
  | .hbm, ⟨32, _⟩ => ⟨S64, .i32⟩
  | .hbm, ⟨33, _⟩ => ⟨S1x64, .i32⟩
  | .hbm, ⟨34, _⟩ => ⟨S384x64, .i32⟩
  | .hbm, ⟨35, _⟩ => ⟨S384x64, .i32⟩
  | .hbm, ⟨36, _⟩ => ⟨S384x64, .i1⟩
  | .hbm, ⟨37, _⟩ => ⟨S384x64, .f32⟩
  | .hbm, ⟨38, _⟩ => ⟨S78125x64, .f32⟩
  | .hbm, ⟨39, _⟩ => ⟨S78125x64, .f32⟩
  | .hbm, ⟨40, _⟩ => ⟨S5000000, .f32⟩
  | .hbm, ⟨41, _⟩ => ⟨S5000000, .f32⟩
  | .hbm, ⟨42, _⟩ => ⟨S5000000x1, .f32⟩
  | .hbm, ⟨43, _⟩ => ⟨S5000000x1, .f32⟩
  | .hbm, ⟨44, _⟩ => ⟨S5000000x2, .f32⟩
  | .hbm, ⟨45, _⟩ => ⟨S_, .f32⟩
  | .hbm, ⟨46, _⟩ => ⟨S50000x2, .f32⟩
  | .hbm, ⟨47, _⟩ => ⟨S5000000x1, .i32⟩
  | .hbm, ⟨48, _⟩ => ⟨S50000x2, .f32⟩
  | .hbm, ⟨49, _⟩ => ⟨S50000x1, .f32⟩
  | .hbm, ⟨50, _⟩ => ⟨S50000, .f32⟩
  | .hbm, ⟨51, _⟩ => ⟨S50000x1, .f32⟩
  | .hbm, ⟨52, _⟩ => ⟨S50000, .f32⟩
  | .hbm, ⟨53, _⟩ => ⟨S_, .f32⟩
  | .hbm, ⟨54, _⟩ => ⟨S50000, .f32⟩
  | .hbm, ⟨55, _⟩ => ⟨S50000, .i1⟩
  | .hbm, ⟨56, _⟩ => ⟨S_, .f32⟩
  | .hbm, ⟨57, _⟩ => ⟨S_, .f32⟩
  | .hbm, ⟨58, _⟩ => ⟨S50000, .f32⟩
  | .hbm, ⟨59, _⟩ => ⟨S50000, .f32⟩
  | .hbm, ⟨60, _⟩ => ⟨S50000, .f32⟩
  | .hbm, ⟨61, _⟩ => ⟨S_, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000, .i32⟩
  | .hbm, ⟨66, _⟩ => ⟨S_, .i32⟩
  | .hbm, ⟨67, _⟩ => ⟨S_, .i32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .local _ .vmem, ⟨0, _⟩ => ⟨S2048x384, .f32⟩
  | .local _ .vmem, ⟨1, _⟩ => ⟨S2048x384, .f32⟩
  | .local _ .vmem, ⟨2, _⟩ => ⟨S2048x384, .f32⟩
  | .local _ .vmem, ⟨3, _⟩ => ⟨S2048x384, .f32⟩
  | .local _ .vmem, ⟨4, _⟩ => ⟨S2048x64, .i32⟩
  | .local _ .vmem, ⟨5, _⟩ => ⟨S2048x64, .i32⟩
  | .local _ .vmem, ⟨6, _⟩ => ⟨S2048x64, .i32⟩
  | .local _ .vmem, ⟨7, _⟩ => ⟨S2048x64, .i32⟩
  | .local _ .vmem, ⟨8, _⟩ => ⟨S384x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | _, _ => ⟨S5000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13_0 : Ref sig .tc := ⟨.hbm, 38, rfl⟩
abbrev main_v13_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_0 : Ref sig .tc := ⟨.hbm, 53, rfl⟩
abbrev main_v26 : Ref sig .tc := ⟨.hbm, 54, rfl⟩
abbrev main_v27 : Ref sig .tc := ⟨.hbm, 55, rfl⟩
abbrev main_cst_1 : Ref sig .tc := ⟨.hbm, 56, rfl⟩
abbrev main_call1_v0 : Ref sig .tc := ⟨.hbm, 57, rfl⟩
abbrev main_call1_v1 : Ref sig .tc := ⟨.hbm, 58, rfl⟩
abbrev main_v28 : Ref sig .tc := ⟨.hbm, 59, rfl⟩
abbrev main_v29 : Ref sig .tc := ⟨.hbm, 60, rfl⟩
abbrev main_cst_2 : Ref sig .tc := ⟨.hbm, 61, rfl⟩
abbrev main_call2_v0 : Ref sig .tc := ⟨.hbm, 62, rfl⟩
abbrev main_call2_v1 : Ref sig .tc := ⟨.hbm, 63, rfl⟩
abbrev main_v30 : Ref sig .tc := ⟨.hbm, 64, rfl⟩
abbrev main_v31 : Ref sig .tc := ⟨.hbm, 65, rfl⟩
abbrev main_c_3 : Ref sig .tc := ⟨.hbm, 66, rfl⟩
abbrev main_v32 : Ref sig .tc := ⟨.hbm, 67, rfl⟩
abbrev main_v33 : Ref sig .tc := ⟨.hbm, 68, rfl⟩
abbrev main_cst_4 : Ref sig .tc := ⟨.hbm, 69, rfl⟩
abbrev main_v34 : Ref sig .tc := ⟨.hbm, 70, rfl⟩
abbrev main_cst_5 : Ref sig .tc := ⟨.hbm, 71, rfl⟩
abbrev main_v35 : Ref sig .tc := ⟨.hbm, 72, rfl⟩
abbrev main_v36 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![39], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S384x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S5000000x6_S78125x384 : S5000000x6.ShapeCasts S78125x384
  shapeCasts_S5000000_S78125x64 : S5000000.ShapeCasts S78125x64
  bcast_S_S384 : S_.BroadcastsInDim S384 (![] : Fin 0 → Fin S384.rank)
  bcast_S384_S384x1_0 : S384.BroadcastsInDim S384x1 (![0] : Fin 1 → Fin S384x1.rank)
  bcast_S64_S1x64_1 : S64.BroadcastsInDim S1x64 (![1] : Fin 1 → Fin S1x64.rank)
  bcast_S384x1_S384x64_0_1 : S384x1.BroadcastsInDim S384x64 (![0, 1] : Fin 2 → Fin S384x64.rank)
  bcast_S1x64_S384x64_0_1 : S1x64.BroadcastsInDim S384x64 (![0, 1] : Fin 2 → Fin S384x64.rank)
  inb_S2048x384_S2048x384_0_0 : ∀ a, (![0, 0] : Fin 2 → Nat) a + S2048x384.size a ≤ S2048x384.size a
  h_S2048x384 : 0 < S2048x384.numel
  shapeCasts_S2048x384_S2048x384 : S2048x384.ShapeCasts S2048x384
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  iota_S2048x64_d0_w32 : S2048x64.Iotas .tc 32 [0]
  natLt_1_32 : 1 < 32
  shapeCasts_S78125x64_S5000000 : S78125x64.ShapeCasts S5000000
  bcast_S5000000_S5000000x1_0 : S5000000.BroadcastsInDim S5000000x1 (![0] : Fin 1 → Fin S5000000x1.rank)
  concatenates_S5000000x1_S5000000x1_S5000000x2_d1 : Shape.Concatenates [S5000000x1, S5000000x1] S5000000x2 1
  bcast_S_S50000x2 : S_.BroadcastsInDim S50000x2 (![] : Fin 0 → Fin S50000x2.rank)
  slices_S50000x2_S50000x1_0_0 : S50000x2.Slices ![0, 0] S50000x1
  shapeCasts_S50000x1_S50000 : S50000x1.ShapeCasts S50000
  slices_S50000x2_S50000x1_0_1 : S50000x2.Slices ![0, 1] S50000x1
  bcast_S_S50000 : S_.BroadcastsInDim S50000 (![] : Fin 0 → Fin S50000.rank)
  reducesTo_S50000_S_d0 : S50000.ReducesTo [0] S_
  h_S_ : 0 < S_.numel
  dot_S2048x384_S384x64_S2048x64_1_0_0_1_n_n_wf : DotDims.WF S2048x384 S384x64 S2048x64 [1] [0] [0] [1] [] []
  scatter_S50000x2_S5000000x1_S5000000x2_1_0_0_1_wf : ScatterDims.WF S50000x2 S5000000x1 S5000000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2048x384.size a < S78125x384.size a
  hwx0_0 : ∀ i : grid0.Coords, EltTy.bits .f32 = 32 ∨ (Rect.unit (s := S78125x384) (fun a => cc0_transform_0 i a * S2048x384.size a) (fun a => (Pipeline.Clip.of (cc0_transform_0 i a) (S2048x384.size a) (S78125x384.size a)).extent (S2048x384.size a)) fun a => Pipeline.Clip.inb (Pipeline.Clip.ok_of (hstart0_0 i a))).WholeWords (EltTy.packing .f32)
  hwxs0_0 : ∀ i : grid0.Coords, EltTy.bits .f32 = 32 ∨ (Rect.unit (s := S2048x384) (fun _ => 0) (fun a => (Pipeline.Clip.of (cc0_transform_0 i a) (S2048x384.size a) (S78125x384.size a)).extent (S2048x384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2048x384.size a < S78125x384.size a
  hwx0_1 : ∀ i : grid0.Coords, EltTy.bits .f32 = 32 ∨ (Rect.unit (s := S78125x384) (fun a => cc0_transform_1 i a * S2048x384.size a) (fun a => (Pipeline.Clip.of (cc0_transform_1 i a) (S2048x384.size a) (S78125x384.size a)).extent (S2048x384.size a)) fun a => Pipeline.Clip.inb (Pipeline.Clip.ok_of (hstart0_1 i a))).WholeWords (EltTy.packing .f32)
  hwxs0_1 : ∀ i : grid0.Coords, EltTy.bits .f32 = 32 ∨ (Rect.unit (s := S2048x384) (fun _ => 0) (fun a => (Pipeline.Clip.of (cc0_transform_1 i a) (S2048x384.size a) (S78125x384.size a)).extent (S2048x384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S2048x64.size a < S78125x64.size a
  hwx0_2 : ∀ i : grid0.Coords, EltTy.bits .i32 = 32 ∨ (Rect.unit (s := S78125x64) (fun a => cc0_transform_2 i a * S2048x64.size a) (fun a => (Pipeline.Clip.of (cc0_transform_2 i a) (S2048x64.size a) (S78125x64.size a)).extent (S2048x64.size a)) fun a => Pipeline.Clip.inb (Pipeline.Clip.ok_of (hstart0_2 i a))).WholeWords (EltTy.packing .i32)
  hwxs0_2 : ∀ i : grid0.Coords, EltTy.bits .i32 = 32 ∨ (Rect.unit (s := S2048x64) (fun _ => 0) (fun a => (Pipeline.Clip.of (cc0_transform_2 i a) (S2048x64.size a) (S78125x64.size a)).extent (S2048x64.size a)) fun a => (Nat.zero_add _).trans_le (Pipeline.Clip.extent_le (Pipeline.Clip.ok_of (hstart0_2 i a)))).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x64.size a < S78125x64.size a
  hwx0_3 : ∀ i : grid0.Coords, EltTy.bits .i32 = 32 ∨ (Rect.unit (s := S78125x64) (fun a => cc0_transform_3 i a * S2048x64.size a) (fun a => (Pipeline.Clip.of (cc0_transform_3 i a) (S2048x64.size a) (S78125x64.size a)).extent (S2048x64.size a)) fun a => Pipeline.Clip.inb (Pipeline.Clip.ok_of (hstart0_3 i a))).WholeWords (EltTy.packing .i32)
  hwxs0_3 : ∀ i : grid0.Coords, EltTy.bits .i32 = 32 ∨ (Rect.unit (s := S2048x64) (fun _ => 0) (fun a => (Pipeline.Clip.of (cc0_transform_3 i a) (S2048x64.size a) (S78125x64.size a)).extent (S2048x64.size a)) fun a => (Nat.zero_add _).trans_le (Pipeline.Clip.extent_le (Pipeline.Clip.ok_of (hstart0_3 i a)))).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384x64.size a ≤ S384x64.size a
  hwx0_4 : ∀ i : grid0.Coords, EltTy.bits .f32 = 32 ∨ (Rect.block (s := S384x64) S384x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S2048x64.size a < S78125x64.size a
  hwx0_5 : ∀ i : grid0.Coords, EltTy.bits .f32 = 32 ∨ (Rect.unit (s := S78125x64) (fun a => cc0_transform_5 i a * S2048x64.size a) (fun a => (Pipeline.Clip.of (cc0_transform_5 i a) (S2048x64.size a) (S78125x64.size a)).extent (S2048x64.size a)) fun a => Pipeline.Clip.inb (Pipeline.Clip.ok_of (hstart0_5 i a))).WholeWords (EltTy.packing .f32)
  hwxs0_5 : ∀ i : grid0.Coords, EltTy.bits .f32 = 32 ∨ (Rect.unit (s := S2048x64) (fun _ => 0) (fun a => (Pipeline.Clip.of (cc0_transform_5 i a) (S2048x64.size a) (S78125x64.size a)).extent (S2048x64.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S2048x64.size a < S78125x64.size a
  hwx0_6 : ∀ i : grid0.Coords, EltTy.bits .f32 = 32 ∨ (Rect.unit (s := S78125x64) (fun a => cc0_transform_6 i a * S2048x64.size a) (fun a => (Pipeline.Clip.of (cc0_transform_6 i a) (S2048x64.size a) (S78125x64.size a)).extent (S2048x64.size a)) fun a => Pipeline.Clip.inb (Pipeline.Clip.ok_of (hstart0_6 i a))).WholeWords (EltTy.packing .f32)
  hwxs0_6 : ∀ i : grid0.Coords, EltTy.bits .f32 = 32 ∨ (Rect.unit (s := S2048x64) (fun _ => 0) (fun a => (Pipeline.Clip.of (cc0_transform_6 i a) (S2048x64.size a) (S78125x64.size a)).extent (S2048x64.size a)) fun a => (Nat.zero_add _).trans_le (Pipeline.Clip.extent_le (Pipeline.Clip.ok_of (hstart0_6 i a)))).WholeWords (EltTy.packing .f32)

variable [Facts₀]

def dot_S2048x384_S384x64_S2048x64_1_0_0_1_n_n : DotDims S2048x384 S384x64 S2048x64 where
  lhsContracting := [1]
  rhsContracting := [0]
  lhsNonContracting := [0]
  rhsNonContracting := [1]
  lhsBatch := []
  rhsBatch := []
  wf := dot_S2048x384_S384x64_S2048x64_1_0_0_1_n_n_wf
def scatter_S50000x2_S5000000x1_S5000000x2_1_0_0_1 : ScatterDims S50000x2 S5000000x1 S5000000x2 where
  updateWindowDims := [1]
  insertedWindowDims := [0]
  scatterDimsToOperandDims := [0]
  indexVectorDim := 1
  wf := scatter_S50000x2_S5000000x1_S5000000x2_1_0_0_1_wf

abbrev win0_0 : Pipeline.Window sig grid0 :=
  Pipeline.Window.ofSpecClip (Memref.whole main_v0) S2048x384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v1) S2048x384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S2048x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v3) S2048x64.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v12) S384x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v13_0) S2048x64.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v13_1) S2048x64.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S5000000 : Shape := ⟨1, ![5000000]⟩
abbrev S5000000x8 : Shape := ⟨2, ![5000000, 8]⟩
abbrev S5000000x6 : Shape := ⟨2, ![5000000, 6]⟩
abbrev S_ : Shape := ⟨0, ![]⟩
abbrev S50000 : Shape := ⟨1, ![50000]⟩
abbrev S5000000x1 : Shape := ⟨2, ![5000000, 1]⟩

abbrev nBuf : Space → Nat
  | .hbm => 50
  | .vmem => 0
  | .smem => 0
  | _ => 0

abbrev bufTy : (tb : Table) → Fin (tcTables nBuf tb) → BufTy
  | .hbm, ⟨0, _⟩ => ⟨S5000000, .f32⟩
  | .hbm, ⟨1, _⟩ => ⟨S5000000, .f32⟩
  | .hbm, ⟨2, _⟩ => ⟨S5000000x8, .f32⟩
  | .hbm, ⟨3, _⟩ => ⟨S5000000x6, .f32⟩
  | .hbm, ⟨4, _⟩ => ⟨S5000000, .f32⟩
  | .hbm, ⟨5, _⟩ => ⟨S5000000, .i32⟩
  | .hbm, ⟨6, _⟩ => ⟨S5000000x6, .f32⟩
  | .hbm, ⟨7, _⟩ => ⟨S5000000, .i32⟩
  | .hbm, ⟨8, _⟩ => ⟨S_, .i32⟩
  | .hbm, ⟨9, _⟩ => ⟨S5000000, .i32⟩
  | .hbm, ⟨10, _⟩ => ⟨S5000000, .i1⟩
  | .hbm, ⟨11, _⟩ => ⟨S_, .i32⟩
  | .hbm, ⟨12, _⟩ => ⟨S5000000, .i32⟩
  | .hbm, ⟨13, _⟩ => ⟨S5000000, .i1⟩
  | .hbm, ⟨14, _⟩ => ⟨S5000000, .i1⟩
  | .hbm, ⟨15, _⟩ => ⟨S5000000, .f32⟩
  | .hbm, ⟨16, _⟩ => ⟨S5000000x6, .f32⟩
  | .hbm, ⟨17, _⟩ => ⟨S5000000x6, .f32⟩
  | .hbm, ⟨18, _⟩ => ⟨S_, .f32⟩
  | .hbm, ⟨19, _⟩ => ⟨S5000000, .f32⟩
  | .hbm, ⟨20, _⟩ => ⟨S5000000, .f32⟩
  | .hbm, ⟨21, _⟩ => ⟨S_, .f32⟩
  | .hbm, ⟨22, _⟩ => ⟨S50000, .f32⟩
  | .hbm, ⟨23, _⟩ => ⟨S5000000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S5000000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S5000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_v21 : Ref sig .tc := ⟨.hbm, 41, rfl⟩
abbrev main_c_6 : Ref sig .tc := ⟨.hbm, 42, rfl⟩
abbrev main_v22 : Ref sig .tc := ⟨.hbm, 43, rfl⟩
abbrev main_v23 : Ref sig .tc := ⟨.hbm, 44, rfl⟩
abbrev main_cst_7 : Ref sig .tc := ⟨.hbm, 45, rfl⟩
abbrev main_v24 : Ref sig .tc := ⟨.hbm, 46, rfl⟩
abbrev main_cst_8 : Ref sig .tc := ⟨.hbm, 47, rfl⟩
abbrev main_v25 : Ref sig .tc := ⟨.hbm, 48, rfl⟩
abbrev main_v26 : Ref sig .tc := ⟨.hbm, 49, rfl⟩

abbrev nD : Nat := 1
abbrev τ : Topo := Topo.v7x

variable {F : FTy → Type} [FloatOps F]

class Facts₀ : Prop where
  bcast_S_S5000000 : S_.BroadcastsInDim S5000000 (![] : Fin 0 → Fin S5000000.rank)
  reducesTo_S5000000x6_S5000000_d1 : S5000000x6.ReducesTo [1] S5000000
  h_S_ : 0 < S_.numel
  bcast_S_S50000 : S_.BroadcastsInDim S50000 (![] : Fin 0 → Fin S50000.rank)
  bcast_S5000000_S5000000x1_0 : S5000000.BroadcastsInDim S5000000x1 (![0] : Fin 1 → Fin S5000000x1.rank)
  natLt_1_32 : 1 < 32
  reducesTo_S50000_S_d0 : S50000.ReducesTo [0] S_
  scatter_S50000_S5000000x1_S5000000_n_0_0_1_wf : ScatterDims.WF S50000 S5000000x1 S5000000 [] [0] [0] 1

variable [Facts₀]

def scatter_S50000_S5000000x1_S5000000_n_0_0_1 : ScatterDims S50000 S5000000x1 S5000000 where
  updateWindowDims := []
  insertedWindowDims := [0]
  scatterDimsToOperandDims := [0]
  indexVectorDim := 1
  wf := scatter_S50000_S5000000x1_S5000000_n_0_0_1_wf

class Facts : Prop extends Facts₀ where

variable [Facts]
-- ==== Proof.KernelTriple.lean ====
/-
  One grid point of the kernel, as a statement about seven staging blocks.

  The body reads five operand blocks whole — the two [2048, 384] float blocks whose difference it squares, the
  [384, 64] group-indicator block, the two [2048, 64] integer blocks of particle ids and flags — and stores two
  [2048, 64] result blocks whole: the validity weight, and the product of the squared differences with the
  indicator block times that weight. It also reads the two result blocks before storing them, to no effect.
  So from the operands at any contents and the results at anything it runs to the operands unchanged and the
  results at those two values of them (the same statement, of the word-level program).
-/
import proofs.«100011_j45432164057703_2_alg».proof.Proof.Gen.Kernel.Frame
import proofs.«100011_j45432164057703_2_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and store is of a whole staging block -/

/-- The whole [2048, 384] block of the two difference operands. -/
abbrev rA : Rect S2048x384 := Rect.unit (s := S2048x384) ![0, 0] S2048x384.size inb_S2048x384_S2048x384_0_0
/-- The whole [384, 64] block of the group-indicator matrix. -/
abbrev rS : Rect S384x64 := Rect.unit (s := S384x64) ![0, 0] S384x64.size inb_S384x64_S384x64_0_0
/-- The whole [2048, 64] block of the two integer operands and of the two results. -/
abbrev rO : Rect S2048x64 := Rect.unit (s := S2048x64) ![0, 0] S2048x64.size inb_S2048x64_S2048x64_0_0

/-- What the body leaves in the weighted-error result's block: its one whole-block store, the grouped
    squared differences times the validity weight, of the five operand blocks. -/
def outW (i : grid0.Coords) (x0 x1 : Vec F S2048x384 .f32) (x2 x3 : Vec F S2048x64 .i32) (x4 : Vec F S384x64 .f32) :
    Vec F S2048x64 .f32 :=
  View.canon [⟨rO, k0_pay2 i (View.ld x0 rA) (View.ld x1 rA) (View.ld x4 rS) (View.ld x2 rO) (View.ld x3 rO)⟩]

/-- What the body leaves in the weight result's block: the validity weight of the two integer blocks. -/
def outM (i : grid0.Coords) (x2 x3 : Vec F S2048x64 .i32) : Vec F S2048x64 .f32 :=
  View.canon [⟨rO, k0_pay1 i (View.ld x2 rO) (View.ld x3 rO)⟩]

/-- One whole-block store covers the block. -/
theorem coverO (p0 : Vec F S2048x64 .f32) (y : S2048x64.Idx) :
    ∃ pc ∈ ([⟨rO, p0⟩] : List (View.Piece (Elt F) S2048x64 .f32)), y ∈ pc.1.set :=
  View.cover_of_tiled [⟨rO, p0⟩] S2048x64.size (by rfl) y

/-! ## The body's triple -/

set_option maxHeartbeats 4000000 in
/-- The body on whole staging blocks — the five operands' at contents `x0 … x4`, the two results' at anything —
    runs to the continuation with the operands' blocks as they were and the results' at `outW`, `outM` of them. -/
theorem sound_kernel (c : Dev nD) (E : Set ℕ) (i : grid0.Coords)
    (arg1 : Memref sig .tc .vmem S2048x384 .f32) (harg1 : arg1.IsWhole) (arg2 : Memref sig .tc .vmem S2048x384 .f32) (harg2 : arg2.IsWhole)
    (arg3 : Memref sig .tc .vmem S2048x64 .i32) (harg3 : arg3.IsWhole) (arg4 : Memref sig .tc .vmem S2048x64 .i32) (harg4 : arg4.IsWhole)
    (arg5 : Memref sig .tc .vmem S384x64 .f32) (harg5 : arg5.IsWhole) (arg6 : Memref sig .tc .vmem S2048x64 .f32) (harg6 : arg6.IsWhole)
    (arg7 : Memref sig .tc .vmem S2048x64 .f32) (harg7 : arg7.IsWhole)
    (x0 x1 : Vec F S2048x384 .f32) (x2 x3 : Vec F S2048x64 .i32) (x4 : Vec F S384x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ owns (c : Thread nD τ) arg6 fullShare (outW i x0 x1 x2 x3 x4)
              ∗ owns (c : Thread nD τ) arg7 fullShare (outM i x2 x3)) -∗ K ⟨⟩))
      ⊢ wp frame (wpE (defs₀ (F := F)) Variants.none c none) E
          (cc0__object_loss_kernel i arg1 harg1 arg2 harg2 arg3 harg3 arg4 harg4 arg5 harg5 arg6 harg6 arg7 harg7) K := by
  simp only [cc0__object_loss_kernel_eq_skeleton]; unfold cc0__object_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  · iexists _; isplitr
    swap; · iexact H6
    ipureintro
    exact View.read_writes_eq_canon _ _ _ (coverO _)

end Cert.Kernel.Body

end
-- ==== Proof.KernelFrame.lean ====
/-
  The word-level kernel's frame.

  Nothing the frame claims depends on what the kernel computes: it runs, faults nowhere, and leaves its eight
  argument arrays as launched. None of them is an array the pipeline stages — the staged arrays are the host's
  reshaped copies, the group-indicator matrix and the two results —, so every argument is a buffer that bypasses
  the region and that no later host line writes. The proof data therefore names no staging contents at all: every
  window is handed to the body at contents nothing names and taken back so (at the word level the matrix
  product at full precision is a function of its whole operands about which nothing is known, so the result
  rows of the clipped last block could not be named in any case).
-/
import proofs.«100011_j45432164057703_2_alg».proof.Proof.KernelTriple
import proofs.«100011_j45432164057703_2_alg».proof.Proof.Gen.Kernel.Points

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten. -/
def forgetAll : Fin 7 → Bool := fun _ => true

/-- The proof data: the arrays as the region finds them; no staging contents named. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- The body obligation with every window forgotten: from the seven staging blocks at any contents the body
    runs and leaves them at some contents. -/
theorem body_obligation (c : Dev nD) :
    BodyObligationLoose (dats (F := F) m 0 c) (defs₀ (F := F)) Variants.none () Set.univ forgetAll := fun t => by
  rw [bigSep_W0, bigSep_W0]
  simp only [forgetAll]
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩, ⟨%X3, H3⟩, ⟨%X4, H4⟩, ⟨%X5, H5⟩, ⟨%X6, H6⟩⟩
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6))
    X0 X1 X2 X3 X4 _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-! ## The host lines after the region write no argument -/

/-- The eight argument arrays. -/
def argSet : Finset (Ref sig .tc) := {main_arg0, main_arg1, main_arg2, main_arg3, main_arg4, main_arg5, main_arg6, main_arg7}
/-- Every other buffer: what the lines after the region may write. -/
def T : Finset (Ref sig .tc) := Finset.univ \ argSet

theorem tail_keeps_arg0 : ∀ op ∈ (List.flatten [hostOps1, hostOps1_1, hostOps1_2, hostOps1_3, hostOps1_4] : List (HloOp τ sig (Elt F))),
    Proc.devRef .tc main_arg0 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg1 : ∀ op ∈ (List.flatten [hostOps1, hostOps1_1, hostOps1_2, hostOps1_3, hostOps1_4] : List (HloOp τ sig (Elt F))),
    Proc.devRef .tc main_arg1 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg2 : ∀ op ∈ (List.flatten [hostOps1, hostOps1_1, hostOps1_2, hostOps1_3, hostOps1_4] : List (HloOp τ sig (Elt F))),
    Proc.devRef .tc main_arg2 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg3 : ∀ op ∈ (List.flatten [hostOps1, hostOps1_1, hostOps1_2, hostOps1_3, hostOps1_4] : List (HloOp τ sig (Elt F))),
    Proc.devRef .tc main_arg3 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg4 : ∀ op ∈ (List.flatten [hostOps1, hostOps1_1, hostOps1_2, hostOps1_3, hostOps1_4] : List (HloOp τ sig (Elt F))),
    Proc.devRef .tc main_arg4 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg5 : ∀ op ∈ (List.flatten [hostOps1, hostOps1_1, hostOps1_2, hostOps1_3, hostOps1_4] : List (HloOp τ sig (Elt F))),
    Proc.devRef .tc main_arg5 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg6 : ∀ op ∈ (List.flatten [hostOps1, hostOps1_1, hostOps1_2, hostOps1_3, hostOps1_4] : List (HloOp τ sig (Elt F))),
    Proc.devRef .tc main_arg6 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem tail_keeps_arg7 : ∀ op ∈ (List.flatten [hostOps1, hostOps1_1, hostOps1_2, hostOps1_3, hostOps1_4] : List (HloOp τ sig (Elt F))),
    Proc.devRef .tc main_arg7 ∉ op.writes :=
  List.forall_iff_forall_mem.mp (by
    simp only [hostOps1, hostOps1_1, hostOps1_2, hostOps1_3, hostOps1_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

theorem tail_writes_T : ∀ ops ∈ ([hostOps1, hostOps1_1, hostOps1_2, hostOps1_3, hostOps1_4] : List (List (HloOp τ sig (Elt F)))), ∀ op ∈ ops,
    ∀ b : Ref sig .tc, Proc.devRef .tc b ∈ op.writes → b ∈ T := by
  intro ops hops op hop b hb
  have hop' : op ∈ (List.flatten [hostOps1, hostOps1_1, hostOps1_2, hostOps1_3, hostOps1_4] : List (HloOp τ sig (Elt F))) :=
    List.mem_flatten.mpr ⟨ops, hops, hop⟩
  unfold T
  rw [Finset.mem_sdiff]
  refine ⟨Finset.mem_univ _, fun hb' => ?_⟩
  unfold argSet at hb'
  simp only [Finset.mem_insert, Finset.mem_singleton] at hb'
  rcases hb' with rfl | rfl | rfl | rfl | rfl | rfl | rfl | rfl
  · exact tail_keeps_arg0 op hop' hb
  · exact tail_keeps_arg1 op hop' hb
  · exact tail_keeps_arg2 op hop' hb
  · exact tail_keeps_arg3 op hop' hb
  · exact tail_keeps_arg4 op hop' hb
  · exact tail_keeps_arg5 op hop' hb
  · exact tail_keeps_arg6 op hop' hb
  · exact tail_keeps_arg7 op hop' hb

/-! ## The run and the frame -/

set_option backward.isDefEq.respectTransparency.types false in
/-- Every weakly fair execution of @main terminates, nothing faulting, with every buffer that bypasses the region
    and that no later line writes — the arguments among them — at its contents when the region was entered. -/
theorem run_main : θ_run defs (onTc (τ := τ) (main (F := F))) (s₀ m ρ)
    (Pipeline.RDat.FramePostR (cfgs 0) (fun c => (dats m 0 c).toRForget forgetAll) T (V m)) :=
  Pipeline.RDat.θ_run_frame_around_T cfgs (0 : Fin 1) launch0 defs₀ Variants.none (fun c => (dats m 0 c).toRForget forgetAll) T m ρ main
    (hbody := fun c => (body_obligation m c).toRForget)
    (hshare := fun c => ((dats m 0 c).toRForget forgetAll).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps) (hT := tail_writes_T)
    (hmain := hmain m Variants.none) (hA := A_eq m) (hΦ := fun _ _ => rfl)

theorem arg_mem (b : Ref sig .tc) (hb : b ∈ argSet) (hs : b.isScoped = false) (ha : ∀ w, (spec0 w).arr.view.ref ≠ b) :
    b ∈ Pipeline.restRefs sig (cfgs 0).spec \ T :=
  Finset.mem_sdiff.mpr ⟨Pipeline.mem_restRefs_of b hs ha, fun h => (Finset.mem_sdiff.mp h).2 hb⟩

/-- The frame: the eight arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_arg0 (arg_mem main_arg0 (by decide) (by decide) (by decide))).trans (V_main_arg0 m c),
     ((h c).2 main_arg1 (arg_mem main_arg1 (by decide) (by decide) (by decide))).trans (V_main_arg1 m c),
     ((h c).2 main_arg2 (arg_mem main_arg2 (by decide) (by decide) (by decide))).trans (V_main_arg2 m c),
     ((h c).2 main_arg3 (arg_mem main_arg3 (by decide) (by decide) (by decide))).trans (V_main_arg3 m c),
     ((h c).2 main_arg4 (arg_mem main_arg4 (by decide) (by decide) (by decide))).trans (V_main_arg4 m c),
     ((h c).2 main_arg5 (arg_mem main_arg5 (by decide) (by decide) (by decide))).trans (V_main_arg5 m c),
     ((h c).2 main_arg6 (arg_mem main_arg6 (by decide) (by decide) (by decide))).trans (V_main_arg6 m c),
     ((h c).2 main_arg7 (arg_mem main_arg7 (by decide) (by decide) (by decide))).trans (V_main_arg7 m c)⟩)
    (run_main m ρ)

end Cert.Kernel.Body

end
-- ==== Proof.IdealTriple.lean ====
/-
  One grid point of the kernel, as a statement about seven staging blocks.

  The body reads five operand blocks whole — the two [2048, 384] float blocks whose difference it squares, the
  [384, 64] group-indicator block, the two [2048, 64] integer blocks of particle ids and flags — and stores two
  [2048, 64] result blocks whole: the validity weight, and the product of the squared differences with the
  indicator block times that weight. It also reads the two result blocks before storing them, to no effect.
  So from the operands at any contents and the results at anything it runs to the operands unchanged and the
  results at those two values of them.
-/
import proofs.«100011_j45432164057703_2_alg».proof.Proof.Gen.KernelIdeal.Frame
import proofs.«100011_j45432164057703_2_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: every load and store is of a whole staging block -/

/-- The whole [2048, 384] block of the two difference operands. -/
abbrev rA : Rect S2048x384 := Rect.unit (s := S2048x384) ![0, 0] S2048x384.size inb_S2048x384_S2048x384_0_0
/-- The whole [384, 64] block of the group-indicator matrix. -/
abbrev rS : Rect S384x64 := Rect.unit (s := S384x64) ![0, 0] S384x64.size inb_S384x64_S384x64_0_0
/-- The whole [2048, 64] block of the two integer operands and of the two results. -/
abbrev rO : Rect S2048x64 := Rect.unit (s := S2048x64) ![0, 0] S2048x64.size inb_S2048x64_S2048x64_0_0

/-- What the body leaves in the weighted-error result's block: its one whole-block store, the grouped
    squared differences times the validity weight, of the five operand blocks. -/
def outW (i : grid0.Coords) (x0 x1 : Vec F S2048x384 .f32) (x2 x3 : Vec F S2048x64 .i32) (x4 : Vec F S384x64 .f32) :
    Vec F S2048x64 .f32 :=
  View.canon [⟨rO, k0_pay2 i (View.ld x0 rA) (View.ld x1 rA) (View.ld x4 rS) (View.ld x2 rO) (View.ld x3 rO)⟩]

/-- What the body leaves in the weight result's block: the validity weight of the two integer blocks. -/
def outM (i : grid0.Coords) (x2 x3 : Vec F S2048x64 .i32) : Vec F S2048x64 .f32 :=
  View.canon [⟨rO, k0_pay1 i (View.ld x2 rO) (View.ld x3 rO)⟩]

/-- One whole-block store covers the block. -/
theorem coverO (p0 : Vec F S2048x64 .f32) (y : S2048x64.Idx) :
    ∃ pc ∈ ([⟨rO, p0⟩] : List (View.Piece (Elt F) S2048x64 .f32)), y ∈ pc.1.set :=
  View.cover_of_tiled [⟨rO, p0⟩] S2048x64.size (by rfl) y

/-! ## The body's triple -/

set_option maxHeartbeats 4000000 in
/-- The body on whole staging blocks — the five operands' at contents `x0 … x4`, the two results' at anything —
    runs to the continuation with the operands' blocks as they were and the results' at `outW`, `outM` of them. -/
theorem sound_kernel (c : Dev nD) (E : Set ℕ) (i : grid0.Coords)
    (arg1 : Memref sig .tc .vmem S2048x384 .f32) (harg1 : arg1.IsWhole) (arg2 : Memref sig .tc .vmem S2048x384 .f32) (harg2 : arg2.IsWhole)
    (arg3 : Memref sig .tc .vmem S2048x64 .i32) (harg3 : arg3.IsWhole) (arg4 : Memref sig .tc .vmem S2048x64 .i32) (harg4 : arg4.IsWhole)
    (arg5 : Memref sig .tc .vmem S384x64 .f32) (harg5 : arg5.IsWhole) (arg6 : Memref sig .tc .vmem S2048x64 .f32) (harg6 : arg6.IsWhole)
    (arg7 : Memref sig .tc .vmem S2048x64 .f32) (harg7 : arg7.IsWhole)
    (x0 x1 : Vec F S2048x384 .f32) (x2 x3 : Vec F S2048x64 .i32) (x4 : Vec F S384x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
              ∗ owns (c : Thread nD τ) arg3 fullShare x2 ∗ owns (c : Thread nD τ) arg4 fullShare x3
              ∗ owns (c : Thread nD τ) arg5 fullShare x4
              ∗ owns (c : Thread nD τ) arg6 fullShare (outW i x0 x1 x2 x3 x4)
              ∗ owns (c : Thread nD τ) arg7 fullShare (outM i x2 x3)) -∗ K ⟨⟩))
      ⊢ wp frame (wpE (defs₀ (F := F)) Variants.none c none) E
          (cc0__object_loss_kernel i arg1 harg1 arg2 harg2 arg3 harg3 arg4 harg4 arg5 harg5 arg6 harg6 arg7 harg7) K := by
  simp only [cc0__object_loss_kernel_eq_skeleton]; unfold cc0__object_loss_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverO _)
  · iexists _; isplitr
    swap; · iexact H6
    ipureintro
    exact View.read_writes_eq_canon _ _ _ (coverO _)

end Cert.KernelIdeal.Body

end
-- ==== Proof.LibRowColDot.lean ====
/-
  A rows-by-columns matrix product read at an output index, at the ideal values.

  For dimension numbers that contract the second axis of an `[a, n]` left operand with the first axis of an
  `[n, b]` right operand into an `[a, b]` result, the entry `(p, q)` of the product is
  `∑ k : Fin n, lhs (p, k) * rhs (k, q)` — for the kernel's matrix unit accumulating into the zero splat
  (`matmul_rowcol`) and for the host's `dot_general` (`hostDot_rowcol`) alike. The two facts about the
  dimension numbers that are not read off a contracted axis (`hl0`, `hr1`: the kept coordinate of each
  operand index is the output's) are hypotheses: a caller has them by unfolding its literal record.
-/
import Idealize.ShloMosaic.PureOps.Ideal.Laws
import Idealize.ShloMosaic.Lib.ValueIdx

noncomputable section

namespace Cert.RowColDot

open Idealize.ShloMosaic Idealize.ShloMosaic.ValueIdx

variable {a n b : ℕ} {φ₁ φ₂ : FTy}

/-- The left operand's index at output `j` and contraction coordinate `k` is `(j 0, k)`. -/
theorem lhsIdx_eq (d : DotDims ⟨2, ![a, n]⟩ ⟨2, ![n, b]⟩ ⟨2, ![a, b]⟩)
    (hr : d.contr.rank = 1) (hs : d.contr.size ⟨0, by omega⟩ = n) (hcl : d.lhsContracting = [1])
    (hl0 : ∀ j q, (d.lhsIdx j q 0).val = (j 0).val) (j : (⟨2, ![a, b]⟩ : Shape).Idx) (k : Fin n) :
    d.lhsIdx j ((contrEquiv1 d n hr hs).symm k) = ix2 (j 0) k :=
  funext fun x => Fin.ext (by
    match x with
    | ⟨0, _⟩ => exact hl0 _ _
    | ⟨1, _⟩ => exact (d.lhsIdx_val_of_single hcl j _).trans (contrEquiv1_symm_val d n hr hs k))

/-- The right operand's index at output `j` and contraction coordinate `k` is `(k, j 1)`. -/
theorem rhsIdx_eq (d : DotDims ⟨2, ![a, n]⟩ ⟨2, ![n, b]⟩ ⟨2, ![a, b]⟩)
    (hr : d.contr.rank = 1) (hs : d.contr.size ⟨0, by omega⟩ = n) (hcr : d.rhsContracting = [0])
    (hr1 : ∀ j q, (d.rhsIdx j q 1).val = (j 1).val) (j : (⟨2, ![a, b]⟩ : Shape).Idx) (k : Fin n) :
    d.rhsIdx j ((contrEquiv1 d n hr hs).symm k) = ix2 k (j 1) :=
  funext fun x => Fin.ext (by
    match x with
    | ⟨0, _⟩ => exact (d.rhsIdx_val_of_single hcr j _).trans (contrEquiv1_symm_val d n hr hs k)
    | ⟨1, _⟩ => exact hr1 _ _)

/-- The matrix unit's product into the zero accumulator, at `(p, q)`: the sum over `k` of `lhs (p, k) * rhs (k, q)`. -/
theorem matmul_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    matmul d prec lhs rhs (constant ⟨2, ![a, b]⟩ .f32 0x00000000#32) j
      = ∑ k : Fin n, lhs (ix2 (j 0) k) * rhs (ix2 k (j 1)) := by
  show FloatOps.matmul d prec lhs rhs (constant ⟨2, ![a, b]⟩ .f32 0x00000000#32) j = _
  rw [Ideal.matmul_constant_zero_apply, ← Equiv.sum_comp (contrEquiv1 d n hr hs).symm]
  refine Finset.sum_congr rfl fun k _ => ?_
  rw [lhsIdx_eq d hr hs hcl hl0 j k, rhsIdx_eq d hr hs hcr hr1 j k]
  all_goals rfl

/-- The host's `dot_general` with the same dimension numbers, at `(p, q)`: the same sum. -/
theorem hostDot_rowcol (d : DotDims ⟨2, ![a, n]⟩ ⟨2, ![n, b]⟩ ⟨2, ![a, b]⟩)
    (hr : d.contr.rank = 1) (hs : d.contr.size ⟨0, by omega⟩ = n)
    (hcl : d.lhsContracting = [1]) (hcr : d.rhsContracting = [0])
    (hl0 : ∀ j q, (d.lhsIdx j q 0).val = (j 0).val) (hr1 : ∀ j q, (d.rhsIdx j q 1).val = (j 1).val)
    (prec : Option ContractPrecision) (lhs : FVec Ideal ⟨2, ![a, n]⟩ φ₁) (rhs : FVec Ideal ⟨2, ![n, b]⟩ φ₂)
    (j : (⟨2, ![a, b]⟩ : Shape).Idx) :
    Host.dotGeneral d prec lhs rhs j = ∑ k : Fin n, lhs (ix2 (j 0) k) * rhs (ix2 k (j 1)) := by
  simp only [Host.dotGeneral]
  rw [Ideal.dotGeneral_apply, ← Equiv.sum_comp (contrEquiv1 d n hr hs).symm]
  refine Finset.sum_congr rfl fun k _ => ?_
  rw [lhsIdx_eq d hr hs hcl hl0 j k, rhsIdx_eq d hr hs hcr hr1 j k]
  all_goals rfl

end Cert.RowColDot

end
-- ==== Proof.IdealPayload.lean ====
/-
  The body's two stored values read at one element, at the ideal values.

  Every operation of the body but the matrix product acts element by element, and the product's row `p` reads
  row `p` of its left operand only. So element `(p, q)` of either stored value depends on ROW `p` of the operand
  blocks and on nothing else — which is what lets a block that overhangs its array be filled out, past the
  array's end, with anything at all.

  * the weight, `weight_apply`: the validity bit of element `(p, q)` — reconstructable, a particle, and the
    global row `2048·g + p` below 78125 — widened and converted, so `0` or `1`;
  * the weighted error, `werr_apply`: `(∑ k < 384, (a (p,k) − b (p,k))² · s (k, q))` times that weight.
-/
import proofs.«100011_j45432164057703_2_alg».proof.Proof.Gen.KernelIdeal.Skeleton
import proofs.«100011_j45432164057703_2_alg».proof.Proof.LibRowColDot
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The validity bit of one element at grid point `g`, block row `p`: the hit is reconstructable, belongs to
    a particle, and its row `2048·g + p` of the [78125, 64] arrangement exists. -/
def validBit (g p : Nat) (pid rc : BitVec 32) : BitVec 1 :=
  IntOp.andi (IntOp.andi (IntOp.cmpi .sgt rc 0#32) (IntOp.cmpi .sgt pid 0#32))
    (IntOp.cmpi .slt (IntOp.addi (Scalar.muli (BitVec.ofNat 32 g) 2048#32) (BitVec.ofNat 32 p)) 78125#32)

/-- The weight stored at an element is its validity bit as a number. -/
theorem weight_apply (i : grid0.Coords) (x2 x3 : Vec Ideal S2048x64 .i32) (j : S2048x64.Idx) :
    k0_pay1 (F := Ideal) i x2 x3 j = ((((validBit (i 0).val (j 0).val (x2 j) (x3 j)).setWidth 32).toInt : ℝ) : EReal) := by
  unfold k0_pay1
  simp only [shapeCast_self]
  rw [sitofp_apply, extui_apply]
  show Scalar.sitofp (F := Ideal) .f32 _ = _
  rw [Ideal.scalar_sitofp_def]
  unfold validBit
  rw [← iota_single_apply .tc S2048x64 32 0 iota_S2048x64_d0_w32 j]
  rfl

/-- The kept coordinates of the product's dimension numbers. -/
theorem dot_lhs_kept (j : S2048x64.Idx) (q : dot_S2048x384_S384x64_S2048x64_1_0_0_1_n_n.contr.Idx) :
    (dot_S2048x384_S384x64_S2048x64_1_0_0_1_n_n.lhsIdx j q 0).val = (j 0).val := rfl
theorem dot_rhs_kept (j : S2048x64.Idx) (q : dot_S2048x384_S384x64_S2048x64_1_0_0_1_n_n.contr.Idx) :
    (dot_S2048x384_S384x64_S2048x64_1_0_0_1_n_n.rhsIdx j q 1).val = (j 1).val := rfl

/-- The weighted error stored at an element: the products of the squared differences along row `j 0` with
    column `j 1` of the third operand, summed, times the weight. -/
theorem werr_apply (i : grid0.Coords) (x0 x1 : Vec Ideal S2048x384 .f32) (x4 : Vec Ideal S384x64 .f32)
    (x2 x3 : Vec Ideal S2048x64 .i32) (j : S2048x64.Idx) :
    k0_pay2 (F := Ideal) i x0 x1 x4 x2 x3 j
      = (∑ k : Fin 384, ((x0 (ix2 (j 0) k) - x1 (ix2 (j 0) k)) * (x0 (ix2 (j 0) k) - x1 (ix2 (j 0) k))) * x4 (ix2 k (j 1)))
        * k0_pay1 (F := Ideal) i x2 x3 j := by
  unfold k0_pay2
  simp only [shapeCast_self]
  rw [mulf_apply]
  congr 1
  exact Cert.RowColDot.matmul_rowcol dot_S2048x384_S384x64_S2048x64_1_0_0_1_n_n rfl rfl rfl rfl dot_lhs_kept dot_rhs_kept _ _ _ j

/-- Element `j` of the weight depends on element `j` of the two integer blocks only. -/
theorem weight_congr (i : grid0.Coords) {x2 x2' x3 x3' : Vec Ideal S2048x64 .i32} (j : S2048x64.Idx)
    (h2 : x2 j = x2' j) (h3 : x3 j = x3' j) : k0_pay1 (F := Ideal) i x2 x3 j = k0_pay1 (F := Ideal) i x2' x3' j := by
  rw [weight_apply, weight_apply, h2, h3]

/-- Element `j` of the weighted error depends on row `j 0` of the two float blocks and element `j` of the two
    integer blocks only. -/
theorem werr_congr (i : grid0.Coords) {x0 x0' x1 x1' : Vec Ideal S2048x384 .f32} (x4 : Vec Ideal S384x64 .f32)
    {x2 x2' x3 x3' : Vec Ideal S2048x64 .i32} (j : S2048x64.Idx)
    (h0 : ∀ k : Fin 384, x0 (ix2 (j 0) k) = x0' (ix2 (j 0) k)) (h1 : ∀ k : Fin 384, x1 (ix2 (j 0) k) = x1' (ix2 (j 0) k))
    (h2 : x2 j = x2' j) (h3 : x3 j = x3' j) :
    k0_pay2 (F := Ideal) i x0 x1 x4 x2 x3 j = k0_pay2 (F := Ideal) i x0' x1' x4 x2' x3' j := by
  rw [werr_apply, werr_apply, weight_congr i j h2 h3]
  congr 1
  exact Finset.sum_congr rfl fun k _ => by rw [h0 k, h1 k]

end Cert.KernelIdeal.Payload

end
-- ==== Proof.IdealBody.lean ====
/-
  The idealized kernel's run, with every array named.

  The grid has 39 points; point `t` works on rows `2048·t … 2048·t + 2047` of the [78125, ·] arrays, and the
  last block overhangs them (78125 = 38·2048 + 301): its fetch lands 301 rows and leaves the rest of the
  staging block at words nothing names, and its write-back writes 301 rows. The proof data therefore says what a
  staging block holds only on the rows a transfer moves. For the four clipped operands that is the array's block
  (filled out past the array's end with the zero word, a choice nothing reads); for the resident third operand
  its whole block; for the two results the body's stored values of those. That the results' rows inside the
  array do not depend on how the operands were filled out is the row-locality of the stored values
  (`Payload.werr_congr`, `Payload.weight_congr`).
-/
import proofs.«100011_j45432164057703_2_alg».proof.Proof.IdealTriple
import proofs.«100011_j45432164057703_2_alg».proof.Proof.IdealPayload
import proofs.«100011_j45432164057703_2_alg».proof.Proof.Gen.KernelIdeal.Points

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- The word a float block is filled out with past its array's end. -/
def zf : S2048x384.Idx → Elt Ideal .f32 := fun _ => Scalar.ofBits (F := Ideal) .f32 0#32
/-- The word an integer block is filled out with past its array's end. -/
def zi : S2048x64.Idx → Elt Ideal .i32 := fun _ => (0#32 : BitVec 32)

/-- The four clipped operands' blocks at point `t`, filled out. -/
def blkA (c : Dev nD) (t : Fin cfg0.N) : Vec Ideal S2048x384 .f32 := win0_0.fill (grid0.coords t) zf (iblk m c 0 t)
def blkB (c : Dev nD) (t : Fin cfg0.N) : Vec Ideal S2048x384 .f32 := win0_1.fill (grid0.coords t) zf (iblk m c 1 t)
def blkP (c : Dev nD) (t : Fin cfg0.N) : Vec Ideal S2048x64 .i32 := win0_2.fill (grid0.coords t) zi (iblk m c 2 t)
def blkR (c : Dev nD) (t : Fin cfg0.N) : Vec Ideal S2048x64 .i32 := win0_3.fill (grid0.coords t) zi (iblk m c 3 t)

/-- The proof data of the one pipeline on core `c`: the arrays as the region finds them; after the body at point
    `t` each operand's block as above and each result's at the body's stored value of them; the class's invariant;
    nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => blkA m c t
    | ⟨1, _⟩ => blkB m c t
    | ⟨2, _⟩ => blkP m c t
    | ⟨3, _⟩ => blkR m c t
    | ⟨4, _⟩ => iblk m c 4 t
    | ⟨5, _⟩ => outW (grid0.coords t) (blkA m c t) (blkB m c t) (blkP m c t) (blkR m c t) (iblk m c 4 t)
    | ⟨6, _⟩ => outM (grid0.coords t) (blkP m c t) (blkR m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = blkA m c t := by dsimp only [dats]
theorem after_1 (c : Dev nD) (t : Fin cfg0.N) : (dats m 0 c).after 1 t = blkB m c t := by dsimp only [dats]
theorem after_2 (c : Dev nD) (t : Fin cfg0.N) : (dats m 0 c).after 2 t = blkP m c t := by dsimp only [dats]
theorem after_3 (c : Dev nD) (t : Fin cfg0.N) : (dats m 0 c).after 3 t = blkR m c t := by dsimp only [dats]
theorem after_4 (c : Dev nD) (t : Fin cfg0.N) : (dats m 0 c).after 4 t = iblk m c 4 t := by dsimp only [dats]
theorem after_5 (c : Dev nD) (t : Fin cfg0.N) : (dats m 0 c).after 5 t
    = outW (grid0.coords t) (blkA m c t) (blkB m c t) (blkP m c t) (blkR m c t) (iblk m c 4 t) := by dsimp only [dats]
theorem after_6 (c : Dev nD) (t : Fin cfg0.N) : (dats m 0 c).after 6 t
    = outM (grid0.coords t) (blkP m c t) (blkR m c t) := by dsimp only [dats]

/-- What the body finds: a clipped operand's block just fetched — the array's block on the rows the fetch moves,
    `d` elsewhere —, -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
theorem before_3 (c : Dev nD) (t : Fin cfg0.N) (d) :
    (dats m 0 c).before 3 t d = win0_3.fill (grid0.coords t) d (iblk m c 3 t) := by
  unfold Dat.before; rw [if_pos (fetch0_3 t)]; unfold Dat.fetched Dat.blockOf iblk; rw [A_eq]
/-- the resident operand's block, fetched once and kept. -/
theorem before_4 (c : Dev nD) (t : Fin cfg0.N) (d) : (dats m 0 c).before 4 t d = iblk m c 4 t :=
  before0_4_of m (dats m 0 c) (A_eq m c 4) (after_4 m c) t d

/-! ## The stored values, simplified: one whole-block store of a value of whole-block loads -/

theorem hz2 : (![0, 0] : Fin 2 → Nat) = fun _ => 0 := funext fun a => by fin_cases a <;> rfl

theorem outW_eq (i : grid0.Coords) (x0 x1 : Vec Ideal S2048x384 .f32) (x2 x3 : Vec Ideal S2048x64 .i32) (x4 : Vec Ideal S384x64 .f32) :
    outW (F := Ideal) i x0 x1 x2 x3 x4 = k0_pay2 (F := Ideal) i x0 x1 x4 x2 x3 := by
  unfold outW
  rw [View.canon_unit_zero hz2]
  simp only [View.ld_unit_zero (S := S2048x384) hz2, View.ld_unit_zero (S := S384x64) hz2, View.ld_unit_zero (S := S2048x64) hz2]

theorem outM_eq (i : grid0.Coords) (x2 x3 : Vec Ideal S2048x64 .i32) :
    outM (F := Ideal) i x2 x3 = k0_pay1 (F := Ideal) i x2 x3 := by
  unfold outM
  rw [View.canon_unit_zero hz2]
  simp only [View.ld_unit_zero (S := S2048x64) hz2]

/-! ## The rows a transfer moves -/

/-- Two ways of filling a block out agree wherever the transfer moves the coordinate. -/
theorem fill_eq_of_moved {G : Pipeline.Grid} (w : Window sig G) {α : Type} (i : G.Coords) (d d' : w.block.Idx → α)
    (g : (w.xblock i).Idx → α) {x : w.block.Idx} (h : w.moved i x = true) : w.fill i d g x = w.fill i d' g x := by
  unfold Window.fill; rw [dif_pos h, dif_pos h]

/-- The six clipped windows are cut alike on the row axis (blocks of 2048 rows over 78125) and not at all on the
    column axis: a row the result's write-back moves is a row every operand's fetch moved, whole. -/
theorem movedA (i : grid0.Coords) (j : (win0_5.xblock i).Idx) (k : Fin 384) :
    win0_0.moved i (ix2 (win0_5.xinj i j 0) k) = true :=
  (win0_0.moved_iff i _).mpr fun a => by
    match a with
    | ⟨0, _⟩ => exact (j 0).isLt
    | ⟨1, _⟩ => exact k.isLt
theorem movedB (i : grid0.Coords) (j : (win0_5.xblock i).Idx) (k : Fin 384) :
    win0_1.moved i (ix2 (win0_5.xinj i j 0) k) = true :=
  (win0_1.moved_iff i _).mpr fun a => by
    match a with
    | ⟨0, _⟩ => exact (j 0).isLt
    | ⟨1, _⟩ => exact k.isLt
theorem movedP (i : grid0.Coords) (j : (win0_5.xblock i).Idx) : win0_2.moved i (win0_5.xinj i j) = true :=
  (win0_2.moved_iff i _).mpr fun a => (j a).isLt
theorem movedR (i : grid0.Coords) (j : (win0_5.xblock i).Idx) : win0_3.moved i (win0_5.xinj i j) = true :=
  (win0_3.moved_iff i _).mpr fun a => (j a).isLt

/-- The weighted-error block's rows inside the array do not depend on how the operands were filled out. -/
theorem cut_outW (c : Dev nD) (t : Fin cfg0.N) (d0 d1 : S2048x384.Idx → Elt Ideal .f32) (d2 d3 : S2048x64.Idx → Elt Ideal .i32) :
    win0_5.cut (grid0.coords t) (outW (grid0.coords t) (win0_0.fill (grid0.coords t) d0 (iblk m c 0 t))
        (win0_1.fill (grid0.coords t) d1 (iblk m c 1 t)) (win0_2.fill (grid0.coords t) d2 (iblk m c 2 t))
        (win0_3.fill (grid0.coords t) d3 (iblk m c 3 t)) (iblk m c 4 t))
      = win0_5.cut (grid0.coords t) (outW (grid0.coords t) (blkA m c t) (blkB m c t) (blkP m c t) (blkR m c t) (iblk m c 4 t)) := by
  funext j
  show outW _ _ _ _ _ _ (win0_5.xinj _ j) = outW _ _ _ _ _ _ (win0_5.xinj _ j)
  rw [outW_eq, outW_eq]
  unfold blkA blkB blkP blkR
  exact Payload.werr_congr _ _ _
    (fun k => fill_eq_of_moved win0_0 _ _ _ _ (movedA _ j k)) (fun k => fill_eq_of_moved win0_1 _ _ _ _ (movedB _ j k))
    (fill_eq_of_moved win0_2 _ _ _ _ (movedP _ j)) (fill_eq_of_moved win0_3 _ _ _ _ (movedR _ j))

/-- Nor do the weight block's. -/
theorem cut_outM (c : Dev nD) (t : Fin cfg0.N) (d2 d3 : S2048x64.Idx → Elt Ideal .i32) :
    win0_6.cut (grid0.coords t) (outM (grid0.coords t) (win0_2.fill (grid0.coords t) d2 (iblk m c 2 t))
        (win0_3.fill (grid0.coords t) d3 (iblk m c 3 t)))
      = win0_6.cut (grid0.coords t) (outM (grid0.coords t) (blkP m c t) (blkR m c t)) := by
  funext j
  show outM _ _ _ (win0_6.xinj _ j) = outM _ _ _ (win0_6.xinj _ j)
  rw [outM_eq, outM_eq]
  unfold blkP blkR
  exact Payload.weight_congr _ _
    (fill_eq_of_moved win0_2 _ _ _ _ (movedP _ j)) (fill_eq_of_moved win0_3 _ _ _ _ (movedR _ j))

/-! ## The body obligation -/

/-- At every point: the clipped operands arrive as their blocks filled out with anything, the resident one as
    its block, the results at anything; the body leaves the operands as they were and the results at its stored
    values, which on the rows the write-back moves are the proof data's. -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3, before_4 m c t d4]
  iapply (sound_kernel (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4)) (win0_5.stage (cfg0.slots t 5)) (hstage0_5 ((cfg0.slots t 5).cast nbuf0_5))
    (win0_6.stage (cfg0.slots t 6)) (hstage0_6 ((cfg0.slots t 6).cast nbuf0_6))
    (win0_0.fill (grid0.coords t) d0 (iblk m c 0 t)) (win0_1.fill (grid0.coords t) d1 (iblk m c 1 t))
    (win0_2.fill (grid0.coords t) d2 (iblk m c 2 t)) (win0_3.fill (grid0.coords t) d3 (iblk m c 3 t)) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]
  · iexists d0
    rw [after_0]
    change _ ⊢ owns (c : Thread nD τ) (win0_0.stage (cfg0.slots t 0)) fullShare
      (win0_0.fill (grid0.coords t) d0 (win0_0.cut (grid0.coords t) (blkA m c t)))
    unfold blkA; rw [win0_0.cut_fill]; try iexact H0
  isplitl [H1]
  · iexists d1
    rw [after_1]
    change _ ⊢ owns (c : Thread nD τ) (win0_1.stage (cfg0.slots t 1)) fullShare
      (win0_1.fill (grid0.coords t) d1 (win0_1.cut (grid0.coords t) (blkB m c t)))
    unfold blkB; rw [win0_1.cut_fill]; try iexact H1
  isplitl [H2]
  · iexists d2
    rw [after_2]
    change _ ⊢ owns (c : Thread nD τ) (win0_2.stage (cfg0.slots t 2)) fullShare
      (win0_2.fill (grid0.coords t) d2 (win0_2.cut (grid0.coords t) (blkP m c t)))
    unfold blkP; rw [win0_2.cut_fill]; try iexact H2
  isplitl [H3]
  · iexists d3
    rw [after_3]
    change _ ⊢ owns (c : Thread nD τ) (win0_3.stage (cfg0.slots t 3)) fullShare
      (win0_3.fill (grid0.coords t) d3 (win0_3.cut (grid0.coords t) (blkR m c t)))
    unfold blkR; rw [win0_3.cut_fill]; try iexact H3
  isplitl [H4]
  · rw [after_4]; iexact H4
  isplitl [H5]
  · iexists (outW (grid0.coords t) (win0_0.fill (grid0.coords t) d0 (iblk m c 0 t)) (win0_1.fill (grid0.coords t) d1 (iblk m c 1 t))
      (win0_2.fill (grid0.coords t) d2 (iblk m c 2 t)) (win0_3.fill (grid0.coords t) d3 (iblk m c 3 t)) (iblk m c 4 t))
    rw [after_5]
    change _ ⊢ owns (c : Thread nD τ) (win0_5.stage (cfg0.slots t 5)) fullShare
      (win0_5.fill (grid0.coords t) (outW (grid0.coords t) (win0_0.fill (grid0.coords t) d0 (iblk m c 0 t)) (win0_1.fill (grid0.coords t) d1 (iblk m c 1 t))
          (win0_2.fill (grid0.coords t) d2 (iblk m c 2 t)) (win0_3.fill (grid0.coords t) d3 (iblk m c 3 t)) (iblk m c 4 t))
        (win0_5.cut (grid0.coords t) (outW (grid0.coords t) (blkA m c t) (blkB m c t) (blkP m c t) (blkR m c t) (iblk m c 4 t))))
    rw [win0_5.fill_congr_cut (grid0.coords t) (cut_outW m c t d0 d1 d2 d3)]; try iexact H5
  · iexists (outM (grid0.coords t) (win0_2.fill (grid0.coords t) d2 (iblk m c 2 t)) (win0_3.fill (grid0.coords t) d3 (iblk m c 3 t)))
    rw [after_6]
    change _ ⊢ owns (c : Thread nD τ) (win0_6.stage (cfg0.slots t 6)) fullShare
      (win0_6.fill (grid0.coords t) (outM (grid0.coords t) (win0_2.fill (grid0.coords t) d2 (iblk m c 2 t)) (win0_3.fill (grid0.coords t) d3 (iblk m c 3 t)))
        (win0_6.cut (grid0.coords t) (outM (grid0.coords t) (blkP m c t) (blkR m c t))))
    rw [win0_6.fill_congr_cut (grid0.coords t) (cut_outM m c t d2 d3)]; try iexact H6

/-! ## The run and the frame -/

set_option backward.isDefEq.respectTransparency.types false in
/-- Every weakly fair execution of @main terminates, nothing faulting, with every staged array at what the
    write-backs leave of the proof data and every other buffer as the host lines after the region leave it. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2, hostOps1_3, hostOps1_4])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2, hostOps1_3, hostOps1_4])
    (hsub := sfx_sub) (hfresh := sfx_fresh) (hkeep := sfx_keeps)
    (hmain := hmain m Variants.none) (hA := A_eq m) (hΦ := fun _ _ => rfl)

/-- The frame: the eight arguments end as launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.IdealArrays.lean ====
/-
  The two result arrays after the run, as whole-array functions of the arrays the region finds.

  Point `t` writes back rows `2048·t … ` of its block, as many as lie inside the [78125, 64] array; row `p` of the
  block is row `r = 2048·t + p` of the array, and by row-locality what is stored there is a function of row `r`
  of the operand arrays alone. So every point writes back its block of ONE whole-array function, and the
  blocks cover the array (row `r` is in block `r / 2048`): the array ends holding that function.
-/
import proofs.«100011_j45432164057703_2_alg».proof.Proof.IdealBody
import Idealize.ShloMosaic.Lib.Pipeline.Value

set_option maxRecDepth 16384

noncomputable section

namespace Cert.KernelIdeal.Arrays

open Cert.KernelIdeal Cert.KernelIdeal.Gen Cert.KernelIdeal.Body Cert.KernelIdeal.Payload
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The schedule, decided over the 39 points -/

theorem coords_val : ∀ t : Fin cfg0.N, (grid0.coords t 0).val = t.val :=
  (by decide +kernel : ∀ t : Fin grid0.N, (grid0.coords t 0).val = t.val)

/-- Every clipped window's block index at point `t` is `(t, 0)`; the resident one's is `(0, 0)`. -/
theorem index_facts : ∀ t : Fin cfg0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0)
    ∧ (win0_5.index t 0 = t.val ∧ win0_5.index t 1 = 0) ∧ (win0_6.index t 0 = t.val ∧ win0_6.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0)
    ∧ (win0_5.index t 0 = t.val ∧ win0_5.index t 1 = 0) ∧ (win0_6.index t 0 = t.val ∧ win0_6.index t 1 = 0))

/-- The rows a result's write-back moves at point `t`: 2048, or what is left of the 78125; all 64 columns. -/
theorem extent_facts : ∀ t : Fin cfg0.N,
    (win0_5.xsize (grid0.coords t) 0 = min 2048 (78125 - t.val * 2048) ∧ win0_5.xsize (grid0.coords t) 1 = 64)
    ∧ (win0_6.xsize (grid0.coords t) 0 = min 2048 (78125 - t.val * 2048) ∧ win0_6.xsize (grid0.coords t) 1 = 64) :=
  (by decide +kernel : ∀ t : Fin grid0.N,
    (win0_5.xsize (grid0.coords t) 0 = min 2048 (78125 - t.val * 2048) ∧ win0_5.xsize (grid0.coords t) 1 = 64)
    ∧ (win0_6.xsize (grid0.coords t) 0 = min 2048 (78125 - t.val * 2048) ∧ win0_6.xsize (grid0.coords t) 1 = 64))

/-! ## The whole-array functions -/

/-- The weight of element `(r, q)`: the validity bit of the hit there, as a number. -/
def wgtArr (I R : S78125x64.Idx → BitVec 32) : S78125x64.Idx → EReal := fun j =>
  ((((validBit ((j 0).val / 2048) ((j 0).val % 2048) (I j) (R j)).setWidth 32).toInt : ℝ) : EReal)

/-- The weighted error of element `(r, q)`: row `r` of the squared differences against column `q` of the
    third operand, times the weight. -/
def werrArr (P Q : S78125x384.Idx → EReal) (S : S384x64.Idx → EReal) (I R : S78125x64.Idx → BitVec 32) :
    S78125x64.Idx → EReal := fun j =>
  (∑ k : Fin 384, ((P (ix2 (j 0) k) - Q (ix2 (j 0) k)) * (P (ix2 (j 0) k) - Q (ix2 (j 0) k))) * S (ix2 k (j 1)))
    * wgtArr I R j

/-! ## An operand block at a row the write-back moves is the array's row -/

theorem fill_apply_of_moved {G : Pipeline.Grid} (w : Window sig G) {α : Type} (i : G.Coords) (d : w.block.Idx → α)
    (g : (w.xblock i).Idx → α) {x : w.block.Idx} (h : w.moved i x = true) :
    w.fill i d g x = g fun a => ⟨(x a).val, (w.moved_iff i x).mp h a⟩ := by
  unfold Window.fill; rw [dif_pos h]

section Point

variable (c : Dev nD) (t : Fin cfg0.N) (x : (win0_5.xblock (grid0.coords t)).Idx) (i : S78125x64.Idx)
  (h0 : (i 0).val = t.val * 2048 + (x 0).val) (h1 : (i 1).val = (x 1).val)

include h0 in
theorem blkA_apply (k : Fin 384) :
    blkA m c t (ix2 (win0_5.xinj (grid0.coords t) x 0) k) = (V m c main_v0 : S78125x384.Idx → EReal) (ix2 (i 0) k) := by
  unfold blkA
  rw [fill_apply_of_moved win0_0 _ _ _ (movedA _ x k)]
  unfold iblk
  show (V m c main_v0 : S78125x384.Idx → EReal) ((win0_0.blk t).view.emb _) = _
  refine congrArg _ (funext fun a => Fin.ext ?_)
  match a with
  | ⟨0, _⟩ =>
    show win0_0.index t 0 * 2048 + 1 * (x 0).val = (i 0).val
    rw [(index_facts t).1.1, h0]; omega
  | ⟨1, _⟩ =>
    show win0_0.index t 1 * 384 + 1 * k.val = k.val
    rw [(index_facts t).1.2]; omega

include h0 in
theorem blkB_apply (k : Fin 384) :
    blkB m c t (ix2 (win0_5.xinj (grid0.coords t) x 0) k) = (V m c main_v1 : S78125x384.Idx → EReal) (ix2 (i 0) k) := by
  unfold blkB
  rw [fill_apply_of_moved win0_1 _ _ _ (movedB _ x k)]
  unfold iblk
  show (V m c main_v1 : S78125x384.Idx → EReal) ((win0_1.blk t).view.emb _) = _
  refine congrArg _ (funext fun a => Fin.ext ?_)
  match a with
  | ⟨0, _⟩ =>
    show win0_1.index t 0 * 2048 + 1 * (x 0).val = (i 0).val
    rw [(index_facts t).2.1.1, h0]; omega
  | ⟨1, _⟩ =>
    show win0_1.index t 1 * 384 + 1 * k.val = k.val
    rw [(index_facts t).2.1.2]; omega

include h0 h1 in
theorem blkP_apply :
    blkP m c t (win0_5.xinj (grid0.coords t) x) = (V m c main_v2 : S78125x64.Idx → BitVec 32) i := by
  unfold blkP
  rw [fill_apply_of_moved win0_2 _ _ _ (movedP _ x)]
  unfold iblk
  show (V m c main_v2 : S78125x64.Idx → BitVec 32) ((win0_2.blk t).view.emb _) = _
  refine congrArg _ (funext fun a => Fin.ext ?_)
  match a with
  | ⟨0, _⟩ =>
    show win0_2.index t 0 * 2048 + 1 * (x 0).val = (i 0).val
    rw [(index_facts t).2.2.1.1, h0]; omega
  | ⟨1, _⟩ =>
    show win0_2.index t 1 * 64 + 1 * (x 1).val = (i 1).val
    rw [(index_facts t).2.2.1.2, h1]; omega

include h0 h1 in
theorem blkR_apply :
    blkR m c t (win0_5.xinj (grid0.coords t) x) = (V m c main_v3 : S78125x64.Idx → BitVec 32) i := by
  unfold blkR
  rw [fill_apply_of_moved win0_3 _ _ _ (movedR _ x)]
  unfold iblk
  show (V m c main_v3 : S78125x64.Idx → BitVec 32) ((win0_3.blk t).view.emb _) = _
  refine congrArg _ (funext fun a => Fin.ext ?_)
  match a with
  | ⟨0, _⟩ =>
    show win0_3.index t 0 * 2048 + 1 * (x 0).val = (i 0).val
    rw [(index_facts t).2.2.2.1.1, h0]; omega
  | ⟨1, _⟩ =>
    show win0_3.index t 1 * 64 + 1 * (x 1).val = (i 1).val
    rw [(index_facts t).2.2.2.1.2, h1]; omega

include h1 in
theorem blkS_apply (k : Fin 384) :
    iblk m c 4 t (ix2 k (win0_5.xinj (grid0.coords t) x 1)) = (V m c main_v12 : S384x64.Idx → EReal) (ix2 k (i 1)) := by
  unfold iblk
  show (V m c main_v12 : S384x64.Idx → EReal) ((win0_4.blk t).view.emb _) = _
  refine congrArg _ (funext fun a => Fin.ext ?_)
  match a with
  | ⟨0, _⟩ =>
    show win0_4.index t 0 * 384 + 1 * k.val = k.val
    rw [(index_facts t).2.2.2.2.1.1]; omega
  | ⟨1, _⟩ =>
    show win0_4.index t 1 * 64 + 1 * (x 1).val = (i 1).val
    rw [(index_facts t).2.2.2.2.1.2, h1]; omega

include h0 h1 in
/-- The weight stored at a moved row is the whole-array weight there. -/
theorem weight_point :
    k0_pay1 (F := Ideal) (grid0.coords t) (blkP m c t) (blkR m c t) (win0_5.xinj (grid0.coords t) x)
      = wgtArr (V m c main_v2) (V m c main_v3) i := by
  have hx : (x 0).val < 2048 := Nat.lt_of_lt_of_le (x 0).isLt (win0_5.xsize_le (grid0.coords t) 0)
  rw [weight_apply, blkP_apply m c t x i h0 h1, blkR_apply m c t x i h0 h1, coords_val t]
  unfold wgtArr
  have e0 : (i 0).val / 2048 = t.val := by rw [h0]; omega
  have e1 : (i 0).val % 2048 = (x 0).val := by rw [h0]; omega
  rw [e0, e1]

include h0 h1 in
/-- The weighted error stored at a moved row is the whole-array weighted error there. -/
theorem werr_point :
    k0_pay2 (F := Ideal) (grid0.coords t) (blkA m c t) (blkB m c t) (iblk m c 4 t) (blkP m c t) (blkR m c t)
        (win0_5.xinj (grid0.coords t) x)
      = werrArr (V m c main_v0) (V m c main_v1) (V m c main_v12) (V m c main_v2) (V m c main_v3) i := by
  rw [werr_apply, weight_point m c t x i h0 h1]
  unfold werrArr
  refine congrArg (· * wgtArr (V m c main_v2) (V m c main_v3) i) ?_
  refine Finset.sum_congr rfl fun k _ => ?_
  rw [blkA_apply m c t x i h0 k, blkB_apply m c t x i h0 k, blkS_apply m c t x i h1 k]

end Point

/-! ## Every point writes back its block of the whole-array function, and the blocks cover the array -/

theorem flushed5 (c : Dev nD) (t : Fin cfg0.N) :
    (dats m 0 c).flushed 5 t = ((cfg0.win 5).blk t).view.read (Elt Ideal)
      (werrArr (V m c main_v0) (V m c main_v1) (V m c main_v12) (V m c main_v2) (V m c main_v3)) := by
  show (cfg0.win 5).cut (grid0.coords t) ((dats m 0 c).after 5 t) = _
  rw [after_5, outW_eq]
  funext x
  show k0_pay2 (F := Ideal) (grid0.coords t) (blkA m c t) (blkB m c t) (iblk m c 4 t) (blkP m c t) (blkR m c t)
      (win0_5.xinj (grid0.coords t) x)
    = werrArr (V m c main_v0) (V m c main_v1) (V m c main_v12) (V m c main_v2) (V m c main_v3) ((win0_5.blk t).view.emb x)
  refine werr_point m c t x _ ?_ ?_
  · show win0_5.index t 0 * 2048 + 1 * (x 0).val = _
    rw [(index_facts t).2.2.2.2.2.1.1]; omega
  · show win0_5.index t 1 * 64 + 1 * (x 1).val = _
    rw [(index_facts t).2.2.2.2.2.1.2]; omega

theorem flushed6 (c : Dev nD) (t : Fin cfg0.N) :
    (dats m 0 c).flushed 6 t = ((cfg0.win 6).blk t).view.read (Elt Ideal) (wgtArr (V m c main_v2) (V m c main_v3)) := by
  show (cfg0.win 6).cut (grid0.coords t) ((dats m 0 c).after 6 t) = _
  rw [after_6, outM_eq]
  funext x
  show k0_pay1 (F := Ideal) (grid0.coords t) (blkP m c t) (blkR m c t) (win0_6.xinj (grid0.coords t) x)
    = wgtArr (V m c main_v2) (V m c main_v3) ((win0_6.blk t).view.emb x)
  refine weight_point m c t x _ ?_ ?_
  · show win0_6.index t 0 * 2048 + 1 * (x 0).val = _
    rw [(index_facts t).2.2.2.2.2.2.1]; omega
  · show win0_6.index t 1 * 64 + 1 * (x 1).val = _
    rw [(index_facts t).2.2.2.2.2.2.2]; omega

/-- Row `r` of a result array lies in the block of point `r / 2048`. -/
theorem cover5 (i : S78125x64.Idx) : ∃ t : Fin cfg0.N, (cfg0.win 5).flush t = true ∧ i ∈ ((cfg0.win 5).blk t).view.set := by
  have hi : (i 0).val < 78125 := (i 0).isLt
  have hq : (i 1).val < 64 := (i 1).isLt
  have ht : (i 0).val / 2048 < cfg0.N := by show _ < grid0.N; rw [N_0]; omega
  refine ⟨⟨(i 0).val / 2048, ht⟩, flush0_5 _, ?_⟩
  show i ∈ ((View.whole main_v13_0).slice (win0_5.rect ⟨(i 0).val / 2048, ht⟩)).set
  rw [View.set_slice_whole, Rect.mem_set_unit]
  intro a
  match a with
  | ⟨0, _⟩ =>
    show win0_5.index _ 0 * 2048 ≤ (i 0).val ∧ (i 0).val < win0_5.index _ 0 * 2048 + win0_5.xsize (grid0.coords _) 0
    rw [(index_facts _).2.2.2.2.2.1.1, (extent_facts _).1.1]
    show (i 0).val / 2048 * 2048 ≤ (i 0).val ∧ (i 0).val < (i 0).val / 2048 * 2048 + min 2048 (78125 - (i 0).val / 2048 * 2048)
    omega
  | ⟨1, _⟩ =>
    show win0_5.index _ 1 * 64 ≤ (i 1).val ∧ (i 1).val < win0_5.index _ 1 * 64 + win0_5.xsize (grid0.coords _) 1
    rw [(index_facts _).2.2.2.2.2.1.2, (extent_facts _).1.2]
    omega

theorem cover6 (i : S78125x64.Idx) : ∃ t : Fin cfg0.N, (cfg0.win 6).flush t = true ∧ i ∈ ((cfg0.win 6).blk t).view.set := by
  have hi : (i 0).val < 78125 := (i 0).isLt
  have hq : (i 1).val < 64 := (i 1).isLt
  have ht : (i 0).val / 2048 < cfg0.N := by show _ < grid0.N; rw [N_0]; omega
  refine ⟨⟨(i 0).val / 2048, ht⟩, flush0_6 _, ?_⟩
  show i ∈ ((View.whole main_v13_1).slice (win0_6.rect ⟨(i 0).val / 2048, ht⟩)).set
  rw [View.set_slice_whole, Rect.mem_set_unit]
  intro a
  match a with
  | ⟨0, _⟩ =>
    show win0_6.index _ 0 * 2048 ≤ (i 0).val ∧ (i 0).val < win0_6.index _ 0 * 2048 + win0_6.xsize (grid0.coords _) 0
    rw [(index_facts _).2.2.2.2.2.2.1, (extent_facts _).2.1]
    show (i 0).val / 2048 * 2048 ≤ (i 0).val ∧ (i 0).val < (i 0).val / 2048 * 2048 + min 2048 (78125 - (i 0).val / 2048 * 2048)
    omega
  | ⟨1, _⟩ =>
    show win0_6.index _ 1 * 64 ≤ (i 1).val ∧ (i 1).val < win0_6.index _ 1 * 64 + win0_6.xsize (grid0.coords _) 1
    rw [(index_facts _).2.2.2.2.2.2.2, (extent_facts _).2.2]
    omega

/-- The weighted-error array after the run. -/
theorem final5 (c : Dev nD) : (dats m 0 c).arrAt 5 cfg0.N
    = werrArr (V m c main_v0) (V m c main_v1) (V m c main_v12) (V m c main_v2) (V m c main_v3) :=
  (dats m 0 c).arrAt_eq_of_cover 5 _ (fun t _ => flushed5 m c t) (fun i => cover5 i)

/-- The weight array after the run. -/
theorem final6 (c : Dev nD) : (dats m 0 c).arrAt 6 cfg0.N = wgtArr (V m c main_v2) (V m c main_v3) :=
  (dats m 0 c).arrAt_eq_of_cover 6 _ (fun t _ => flushed6 m c t) (fun i => cover6 i)

end Cert.KernelIdeal.Arrays

end
-- ==== Proof.GroupMean.lean ====
/-
  The last stage of the loss, common to the two programs: from the per-particle sums `s` and counts `n`
  (50000 buckets each) the mean over the occupied buckets of the bucket means, times 100:

      100 · Σ_p [n_p > 0] · s_p / (n_p if n_p > 0 else 1)   /   #{p : n_p > 0}.

  Both programs compute it by the same host operations in the same order, so it is stated once, over the
  operations themselves, and never opened: the two results agree as soon as the sums and the counts do.
-/
import Idealize.ShloMosaic.PureOps.Ideal
import Idealize.ShloMosaic.Lib.StableHlo

noncomputable section

namespace Cert.GroupMean

open Idealize.ShloMosaic

variable {F : FTy → Type} [FloatOps F]

/-- The shape of the per-particle vectors. -/
abbrev B : Shape := ⟨1, ![50000]⟩
/-- The scalar shape. -/
abbrev S0 : Shape := ⟨0, ![]⟩

/-- The occupied buckets: those whose count is positive. -/
def occupied (hb : S0.BroadcastsInDim B (![] : Fin 0 → Fin B.rank)) (n : FVec F B .f32) : IVec B 1 :=
  cmpf .ogt n (broadcastInDim B ![] hb (constant (F := F) S0 .f32 0x00000000#32))

/-- The mean of the bucket means over the occupied buckets, times 100, as the host operations spell it. -/
def groupMean (hb : S0.BroadcastsInDim B (![] : Fin 0 → Fin B.rank)) (hr : B.ReducesTo [0] S0) (h0 : 0 < S0.numel)
    (h1 : 1 < 32) (s n : FVec F B .f32) : FVec F S0 .f32 :=
  Host.divf
    (mulf (constant (F := F) S0 .f32 0x42C80000#32)
      (Host.reduceAdd
        (select (occupied hb n)
          (Host.divf s (select (occupied hb n) n (broadcastInDim B ![] hb (id (constant (F := F) S0 .f32 0x3F800000#32)))))
          (broadcastInDim B ![] hb (id (constant (F := F) S0 .f32 0x00000000#32))))
        (constant (F := F) S0 .f32 0x00000000#32) hr h0))
    (sitofp .f32 (Host.reduce IntOp.addi (extui 32 (occupied hb n) h1) (constantI S0 32 0#32) hr h0))

end Cert.GroupMean

end
-- ==== Proof.IdealTail.lean ====
/-
  The host lines after the region.

  The two result arrays, [78125, 64], are flattened to the per-hit vectors [5000000], stacked as the two columns
  of a [5000000, 2] array, and scatter-summed over the particle ids into a [50000, 2] array of buckets; its two
  columns are the per-particle sums and counts, which the common last stage turns into the result.
-/
import proofs.«100011_j45432164057703_2_alg».proof.Proof.IdealArrays
import proofs.«100011_j45432164057703_2_alg».proof.Proof.GroupMean
import Idealize.ShloMosaic.Lib.StableHlo.Run

set_option maxRecDepth 16384

noncomputable section

namespace Cert.KernelIdeal.Tail

open Cert.KernelIdeal Cert.KernelIdeal.Gen Cert.KernelIdeal.Body Cert.KernelIdeal.Arrays
open Idealize.ShloMosaic Idealize.ShloMosaic.TcCoe Idealize.ShloMosaic.ValueIdx Idealize.SL.Sem Idealize.ShloMosaic.StableHlo

/-- The two per-hit vectors as the two columns of one array. -/
def stacked (o0 o1 : FVec Ideal S78125x64 .f32) : FVec Ideal S5000000x2 .f32 :=
  concatenate S5000000x2 1
    [⟨S5000000x1, broadcastInDim S5000000x1 ![0] bcast_S5000000_S5000000x1_0 (shapeCast S5000000 o0 shapeCasts_S78125x64_S5000000)⟩,
     ⟨S5000000x1, broadcastInDim S5000000x1 ![0] bcast_S5000000_S5000000x1_0 (shapeCast S5000000 o1 shapeCasts_S78125x64_S5000000)⟩]
    concatenates_S5000000x1_S5000000x1_S5000000x2_d1

/-- The buckets: the scatter-sum of the stacked columns over the particle ids, from zero. -/
def buckets (o0 o1 : FVec Ideal S78125x64 .f32) (x5 : IVec S5000000 32) : FVec Ideal S50000x2 .f32 :=
  Host.scatterAdd scatter_S50000x2_S5000000x1_S5000000x2_1_0_0_1
    (broadcastInDim S50000x2 ![] bcast_S_S50000x2 (constant (F := Ideal) S_ .f32 0x00000000#32))
    (broadcastInDim S5000000x1 ![0] bcast_S5000000_S5000000x1_0 x5) (stacked o0 o1)

/-- The buckets' first column: the per-particle sums. -/
def column0 (b : FVec Ideal S50000x2 .f32) : FVec Ideal S50000 .f32 :=
  shapeCast S50000 (extractStridedSlice S50000x1 ![0, 0] b slices_S50000x2_S50000x1_0_0) shapeCasts_S50000x1_S50000
/-- The buckets' second column: the per-particle counts. -/
def column1 (b : FVec Ideal S50000x2 .f32) : FVec Ideal S50000 .f32 :=
  shapeCast S50000 (extractStridedSlice S50000x1 ![0, 1] b slices_S50000x2_S50000x1_0_1) shapeCasts_S50000x1_S50000

/-- The result from the two result arrays and the particle ids. -/
def result (o0 o1 : FVec Ideal S78125x64 .f32) (x5 : IVec S5000000 32) : FVec Ideal S_ .f32 :=
  Cert.GroupMean.groupMean (F := Ideal) bcast_S_S50000 reducesTo_S50000_S_d0 h_S_ natLt_1_32
    (column0 (buckets o0 o1 x5)) (column1 (buckets o0 o1 x5))

variable (m : (ℓ : Loc nD τ sig) → Buf (Elt Ideal) ℓ) (c : Dev nD)

/-- The buffers as the region leaves them: the staged arrays at what the write-backs left, the others as found. -/
abbrev left : Valuation τ sig (Elt Ideal) :=
  Pipeline.withArrays (cfgs 0).spec c (V0 m c) fun w => (dats m 0 c).arrAt w (cfgs 0).N

/-! ## The host lines after the region, a stretch at a time

The lines come in five stretches (the two `where`s are calls of their own). Each stretch is read off from ANY buffer
contents `W`: what it leaves in the buffers the later stretches read, as a function of what `W` holds. -/

/-- Running two stretches one after the other. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op ops ih => exact ih _

section Stages

variable (W : Valuation τ sig (Elt Ideal))

set_option maxHeartbeats 2000000 in
/-- The first stretch: the sums, the counts, the occupied buckets and the constant one. -/
theorem stage1_sums : (StableHlo.after hostOps1 W (Proc.devRef .tc main_v23) : S50000.Idx → EReal)
    = column0 (buckets (W (Proc.devRef .tc main_v13_0)) (W (Proc.devRef .tc main_v13_1)) (W (Proc.devRef .tc main_arg5))) := by
  simp only [hostOps1]; after_results <;> rfl
set_option maxHeartbeats 2000000 in
theorem stage1_counts : (StableHlo.after hostOps1 W (Proc.devRef .tc main_v25) : S50000.Idx → EReal)
    = column1 (buckets (W (Proc.devRef .tc main_v13_0)) (W (Proc.devRef .tc main_v13_1)) (W (Proc.devRef .tc main_arg5))) := by
  simp only [hostOps1]; after_results <;> rfl
set_option maxHeartbeats 2000000 in
theorem stage1_occ : (StableHlo.after hostOps1 W (Proc.devRef .tc main_v27) : S50000.Idx → BitVec 1)
    = Cert.GroupMean.occupied (F := Ideal) bcast_S_S50000
        (column1 (buckets (W (Proc.devRef .tc main_v13_0)) (W (Proc.devRef .tc main_v13_1)) (W (Proc.devRef .tc main_arg5)))) := by
  simp only [hostOps1]; after_results <;> rfl
set_option maxHeartbeats 2000000 in
theorem stage1_one : (StableHlo.after hostOps1 W (Proc.devRef .tc main_cst_1) : S_.Idx → EReal)
    = constant (F := Ideal) S_ .f32 0x3F800000#32 := by
  simp only [hostOps1]; after_results <;> rfl

/-- The second stretch (the first `where`): the counts with the empty buckets' replaced by one; the sums and the
    occupied buckets untouched. -/
theorem stage2_den : (StableHlo.after hostOps1_1 W (Proc.devRef .tc main_v28) : S50000.Idx → EReal)
    = select (W (Proc.devRef .tc main_v27) : S50000.Idx → BitVec 1) (W (Proc.devRef .tc main_v25) : S50000.Idx → EReal)
        (broadcastInDim S50000 ![] bcast_S_S50000 (id (W (Proc.devRef .tc main_cst_1) : S_.Idx → EReal))) := by
  simp only [hostOps1_1]; after_results <;> rfl
theorem stage2_sums : StableHlo.after hostOps1_1 W (Proc.devRef .tc main_v23) = W (Proc.devRef .tc main_v23) := by
  simp only [hostOps1_1]; after_results <;> rfl
theorem stage2_occ : StableHlo.after hostOps1_1 W (Proc.devRef .tc main_v27) = W (Proc.devRef .tc main_v27) := by
  simp only [hostOps1_1]; after_results <;> rfl

/-- The third stretch: the bucket means, and the constant zero; the occupied buckets untouched. -/
theorem stage3_mean : (StableHlo.after hostOps1_2 W (Proc.devRef .tc main_v29) : S50000.Idx → EReal)
    = Host.divf (F := Ideal) (s := S50000) (φ := .f32) (W (Proc.devRef .tc main_v23)) (W (Proc.devRef .tc main_v28)) := by
  simp only [hostOps1_2]; after_results <;> rfl
theorem stage3_zero : (StableHlo.after hostOps1_2 W (Proc.devRef .tc main_cst_2) : S_.Idx → EReal)
    = constant (F := Ideal) S_ .f32 0x00000000#32 := by
  simp only [hostOps1_2]; after_results <;> rfl
theorem stage3_occ : StableHlo.after hostOps1_2 W (Proc.devRef .tc main_v27) = W (Proc.devRef .tc main_v27) := by
  simp only [hostOps1_2]; after_results <;> rfl

/-- The fourth stretch (the second `where`): the means with the empty buckets' replaced by zero. -/
theorem stage4_means : (StableHlo.after hostOps1_3 W (Proc.devRef .tc main_v30) : S50000.Idx → EReal)
    = select (W (Proc.devRef .tc main_v27) : S50000.Idx → BitVec 1) (W (Proc.devRef .tc main_v29) : S50000.Idx → EReal)
        (broadcastInDim S50000 ![] bcast_S_S50000 (id (W (Proc.devRef .tc main_cst_2) : S_.Idx → EReal))) := by
  simp only [hostOps1_3]; after_results <;> rfl
theorem stage4_occ : StableHlo.after hostOps1_3 W (Proc.devRef .tc main_v27) = W (Proc.devRef .tc main_v27) := by
  simp only [hostOps1_3]; after_results <;> rfl

/-- The last stretch: 100 times the sum of the means, over the number of occupied buckets. -/
theorem stage5_result : (StableHlo.after hostOps1_4 W (Proc.devRef .tc main_v36) : S_.Idx → EReal)
    = Host.divf (F := Ideal) (s := S_) (φ := .f32)
        (mulf (constant (F := Ideal) S_ .f32 0x42C80000#32)
          (Host.reduceAdd (F := Ideal) (s := S50000) (φ := .f32) (W (Proc.devRef .tc main_v30)) (constant (F := Ideal) S_ .f32 0x00000000#32)
            reducesTo_S50000_S_d0 h_S_))
        (sitofp .f32 (Host.reduce IntOp.addi (extui 32 (W (Proc.devRef .tc main_v27) : S50000.Idx → BitVec 1) natLt_1_32) (constantI S_ 32 0#32) reducesTo_S50000_S_d0 h_S_)) := by
  simp only [hostOps1_4]; after_results <;> rfl

end Stages

set_option maxHeartbeats 2000000 in
/-- The host lines after the region, run from ANY buffer contents `L`: the result buffer ends at `result` of what
    `L` holds in the two result arrays and in the particle ids. -/
theorem tail_gen (L : Valuation τ sig (Elt Ideal)) :
    (StableHlo.after (List.flatten [hostOps1, hostOps1_1, hostOps1_2, hostOps1_3, hostOps1_4]) L (Proc.devRef .tc main_v36) : S_.Idx → EReal)
      = result (L (Proc.devRef .tc main_v13_0)) (L (Proc.devRef .tc main_v13_1)) (L (Proc.devRef .tc main_arg5)) := by
  show (StableHlo.after (hostOps1 ++ (hostOps1_1 ++ (hostOps1_2 ++ (hostOps1_3 ++ (hostOps1_4 ++ []))))) L (Proc.devRef .tc main_v36) : S_.Idx → EReal) = _
  rw [after_append, after_append, after_append, after_append, List.append_nil]
  rw [stage5_result, stage4_means, stage4_occ, stage3_mean, stage3_zero, stage3_occ, stage2_den, stage2_sums, stage2_occ,
    stage1_sums, stage1_counts, stage1_occ, stage1_one]
  rfl

/-- The result buffer after the host lines that follow the region. -/
theorem tail_eq :
    (Pipeline.afterTail₀ cfgs (dats m) 0 (V0 m) [hostOps1, hostOps1_1, hostOps1_2, hostOps1_3, hostOps1_4] c main_v36 : S_.Idx → EReal)
      = result (left m c (Proc.devRef .tc main_v13_0)) (left m c (Proc.devRef .tc main_v13_1)) (left m c (Proc.devRef .tc main_arg5)) :=
  tail_gen (left m c)

theorem left_out0 : (left m c (Proc.devRef .tc main_v13_0) : S78125x64.Idx → EReal)
    = werrArr (V m c main_v0) (V m c main_v1) (V m c main_v12) (V m c main_v2) (V m c main_v3) :=
  (Pipeline.withArrays_arr spec0 winFacts0.arr_inj c (V0 m c) (fun w => (dats m 0 c).arrAt w (cfgs 0).N) 5).trans (final5 m c)

theorem left_out1 : (left m c (Proc.devRef .tc main_v13_1) : S78125x64.Idx → EReal)
    = wgtArr (V m c main_v2) (V m c main_v3) :=
  (Pipeline.withArrays_arr spec0 winFacts0.arr_inj c (V0 m c) (fun w => (dats m 0 c).arrAt w (cfgs 0).N) 6).trans (final6 m c)

theorem left_arg5 : (left m c (Proc.devRef .tc main_arg5) : S5000000.Idx → BitVec 32) = m ((c : Thread nD τ).loc main_arg5) :=
  (Pipeline.withArrays_of_ne spec0 c (V0 m c) _ main_arg5 (by decide : ∀ w, Pipeline.arrRef spec0 w ≠ main_arg5)).trans (V_main_arg5 m c)

/-- The kernel's result: the tail applied to the two whole-array functions and the particle ids. -/
theorem result_eq :
    (Pipeline.afterTail₀ cfgs (dats m) 0 (V0 m) [hostOps1, hostOps1_1, hostOps1_2, hostOps1_3, hostOps1_4] c main_v36 : S_.Idx → EReal)
      = result (werrArr (V m c main_v0) (V m c main_v1) (V m c main_v12) (V m c main_v2) (V m c main_v3))
          (wgtArr (V m c main_v2) (V m c main_v3)) (m ((c : Thread nD τ).loc main_arg5)) := by
  rw [tail_eq, left_out0, left_out1, left_arg5]

end Cert.KernelIdeal.Tail

end
-- ==== Proof.LibHostRowReads.lean ====
/-
  Three host operations on matrices, read at an index given by coordinates.

  * a host sum over the columns of an `[a, n]` array of extended reals, read at row `p`, is the initial value plus the
    sum over `k : Fin n` of the entries `(p, k)`;
  * an `[a]` vector placed as the column `[a, 1]` by `broadcast_in_dim` along axis 0 holds, at `(p, u)`, entry `p`;
  * an `[a, n]` array padded with extra rows BELOW (no low padding, no interior padding, columns untouched) holds, at
    a row that is one of the operand's, the operand's entry.
-/
import Idealize.ShloMosaic.PureOps.Ideal.Laws
import Idealize.ShloMosaic.Lib.ValueIdx
import Idealize.ShloMosaic.Lib.Pipeline.Value
import Idealize.ShloMosaic.Lib.KernelVsHost

noncomputable section

namespace Cert.HostRowReads

open Idealize.ShloMosaic Idealize.ShloMosaic.ValueIdx

/-- A host sum over the columns, read at row `p`: the initial value plus that row's entries summed. -/
theorem hostReduceAdd_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) (Finset.sum_congr rfl fun k _ => ?_)
  exact congrArg x (funext fun c => Fin.ext (by match c with | ⟨0, _⟩ => rfl | ⟨1, _⟩ => rfl))

variable {α : Type}

/-- A vector placed as a column: at `(p, u)` it holds the vector's entry `p`. -/
theorem broadcastInDim_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ ![0] h v (ix2 p u) = v (ix1 p) :=
  broadcastInDim_apply _ h v _ _ fun ax => by
    match ax with
    | ⟨0, _⟩ =>
      show p.val = if a = 1 then 0 else p.val
      split
      · have := p.isLt; omega
      · rfl

/-- Rows appended below: at a row `c'` that is the operand's row `c`, the padded array holds the operand's entry. -/
theorem pad_rows_below_apply {a a' n e : ℕ} (x : (⟨2, ![a, n]⟩ : Shape).Idx → α) {u : Shape} (v : u.Idx → α)
    (h : (⟨2, ![a, n]⟩ : Shape).Pads (![0, 0] : Fin 2 → Nat) ![e, 0] ![0, 0] ⟨2, ![a', n]⟩) (hu : 0 < u.numel)
    (c : Fin a) (c' : Fin a') (hc : c'.val = c.val) (k : Fin n) :
    pad ⟨2, ![a', n]⟩ ![0, 0] ![e, 0] ![0, 0] x v h hu (ix2 c' k) = x (ix2 c k) :=
  pad_apply_of_inside _ _ _ x v h hu _ _ fun ax => by
    match ax with
    | ⟨0, _⟩ => show c'.val = 0 + c.val * (0 + 1); omega
    | ⟨1, _⟩ => show k.val = 0 + k.val * (0 + 1); omega

end Cert.HostRowReads

end
-- ==== Proof.LibHostRowMax.lean ====
/-
  Three host operations on matrices, read at an index given by coordinates — the keepdims pieces of a row statistic
  computed on the host.

  * a host maximum over the columns of an `[a, n]` array of extended reals, read at row `p`, is the fold of `max`
    from the initial value over the entries `(p, k)`, `k : Fin n`;
  * an `[a, 1]` column repeated along the rows by `broadcast_in_dim` with `dims = [0, 1]` holds, at `(p, c)`, the
    column's entry `(p, 0)`, whatever the column `c`;
  * a `[b]` vector placed as the one row `[1, b]` by `broadcast_in_dim` with `dims = [1]` holds, at `(u, c)`, the
    vector's entry `c`.
-/
import Idealize.ShloMosaic.PureOps.Ideal.Laws
import Idealize.ShloMosaic.Lib.ValueIdx
import Idealize.ShloMosaic.Lib.Pipeline.Value

noncomputable section

namespace Cert.HostRowMax

open Idealize.ShloMosaic Idealize.ShloMosaic.ValueIdx

/-- Row `p` with the column coordinate `k` put back is the index `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A host maximum over the columns, read at row `p`: the fold of `max`, from the initial value, over that row's
    entries. -/
theorem hostReduceMax_row {a n : ℕ} {φ : FTy} (x : FVec Ideal ⟨2, ![a, n]⟩ φ) {u : Shape} (init : u.Idx → Ideal φ)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce FloatOps.maximumf x init h' hu (ix1 p)
      = (Finset.univ : Finset (Fin n)).fold max (init (Shape.Idx.first hu)) (fun k => x (ix2 p k)) := by
  rw [Host.reduce_eq_fold_single FloatOps.maximumf x init h' h hu]
  exact congrArg (fun f => (Finset.univ : Finset (Fin n)).fold max (init (Shape.Idx.first hu)) f)
    (funext fun k => congrArg x (lift_row h p k))

variable {α : Type}

/-- A column repeated along the rows: at `(p, c)` it holds the column's entry `(p, 0)`. -/
theorem broadcastInDim_cols_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ =>
      show (0 : ℕ) = if (1 : ℕ) = 1 then 0 else c.val
      simp

/-- A vector placed as one row: at `(u, c)` it holds the vector's entry `c`. -/
theorem broadcastInDim_row_apply {b : ℕ} (v : (⟨1, ![b]⟩ : Shape).Idx → α)
    (h : (⟨1, ![b]⟩ : Shape).BroadcastsInDim ⟨2, ![1, b]⟩ (![1] : Fin 1 → Fin 2)) (u : Fin 1) (c : Fin b) :
    broadcastInDim ⟨2, ![1, b]⟩ ![1] h v (ix2 u c) = v (ix1 c) :=
  broadcastInDim_apply _ h v _ _ fun ax => by
    match ax with
    | ⟨0, _⟩ =>
      show c.val = if b = 1 then 0 else c.val
      split
      · have := c.isLt; omega
      · rfl

end Cert.HostRowMax

end
-- ==== Proof.LibHostRowBroadcast.lean ====
/-
  Two host broadcasts read at an index given by coordinates.

  * a `[1, b]` row repeated along the rows by `broadcast_in_dim` with `dims = [0, 1]` holds, at `(p, c)`, the row's
    entry `(0, c)`, whatever the row `p` (the companion of the column form, `[a, 1]` to `[a, b]`);
  * a scalar (a rank-0 array) broadcast to any shape by `broadcast_in_dim` with `dims = []` holds the scalar at every
    index.
-/
import Idealize.ShloMosaic.Lib.ValueIdx
import Idealize.ShloMosaic.Lib.Pipeline.Value

noncomputable section

namespace Cert.HostRowBroadcast

open Idealize.ShloMosaic Idealize.ShloMosaic.ValueIdx

variable {α : Type}

/-- A row repeated along the rows: at `(p, c)` it holds the row's entry `(0, c)`. -/
theorem broadcastInDim_rows_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ =>
      show (0 : ℕ) = if (1 : ℕ) = 1 then 0 else p.val
      simp
    | ⟨1, _⟩ =>
      show c.val = if b = 1 then 0 else c.val
      split
      · have := c.isLt; omega
      · rfl

/-- A scalar broadcast to a shape `t`: at every index it holds the scalar. -/
theorem broadcastInDim_scalar_apply {t : Shape} (v : (⟨0, ![]⟩ : Shape).Idx → α)
    (h : (⟨0, ![]⟩ : Shape).BroadcastsInDim t (![] : Fin 0 → Fin t.rank)) (i : t.Idx) :
    broadcastInDim t ![] h v i = v ix0 :=
  broadcastInDim_apply _ h v i ix0 fun ax => ax.elim0

end Cert.HostRowBroadcast

end
-- ==== Proof.IdealEntry.lean ====
/-
  The arrays the region finds, read at an index.

  The host lines before the region re-lay the arguments and build one constant matrix:
  * `pred` and `track_params`, [5000000, 6], are viewed as [78125, 384]: entry `(r, 6·q + j)` is the argument's
    entry `(64·r + q, j)` (both at row-major position `384·r + 6·q + j`);
  * `particle_id` and `reconstructable`, [5000000], are viewed as [78125, 64]: entry `(r, q)` is entry `64·r + q`;
  * the [384, 64] group-indicator matrix has a one at `(k, q)` exactly when `k / 6 = q` (the floor division is the
    host's, on 32-bit words: for `k < 384` it is the natural-number quotient).
-/
import proofs.«100011_j45432164057703_2_alg».proof.Proof.Gen.KernelIdeal.Frame
import proofs.«100011_j45432164057703_2_alg».proof.Proof.LibHostRowReads
import proofs.«100011_j45432164057703_2_alg».proof.Proof.LibHostRowMax
import proofs.«100011_j45432164057703_2_alg».proof.Proof.LibHostRowBroadcast
import Idealize.ShloMosaic.Lib.StableHlo.Run
import Idealize.ShloMosaic.Lib.Pipeline.Value
import Idealize.ShloMosaic.Lib.ValueIdx

set_option maxRecDepth 16384

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (c : Dev nD)

/-! ## The host lines' terms -/

theorem V_v0 : (V m c main_v0 : S78125x384.Idx → EReal)
    = shapeCast S78125x384 (m ((c : Thread nD τ).loc main_arg3)) shapeCasts_S5000000x6_S78125x384 := by
  dsimp only [V, V0]
  simp only [hostOps0, hostOps0_1, hostOps0_2, List.flatten_cons, List.flatten_nil, List.append_nil, List.cons_append, List.nil_append]
  after_results; rfl
theorem V_v1 : (V m c main_v1 : S78125x384.Idx → EReal)
    = shapeCast S78125x384 (m ((c : Thread nD τ).loc main_arg6)) shapeCasts_S5000000x6_S78125x384 := by
  dsimp only [V, V0]
  simp only [hostOps0, hostOps0_1, hostOps0_2, List.flatten_cons, List.flatten_nil, List.append_nil, List.cons_append, List.nil_append]
  after_results; rfl
theorem V_v2 : (V m c main_v2 : S78125x64.Idx → BitVec 32)
    = shapeCast S78125x64 (m ((c : Thread nD τ).loc main_arg5)) shapeCasts_S5000000_S78125x64 := by
  dsimp only [V, V0]
  simp only [hostOps0, hostOps0_1, hostOps0_2, List.flatten_cons, List.flatten_nil, List.append_nil, List.cons_append, List.nil_append]
  after_results; rfl
theorem V_v3 : (V m c main_v3 : S78125x64.Idx → BitVec 32)
    = shapeCast S78125x64 (m ((c : Thread nD τ).loc main_arg7)) shapeCasts_S5000000_S78125x64 := by
  dsimp only [V, V0]
  simp only [hostOps0, hostOps0_1, hostOps0_2, List.flatten_cons, List.flatten_nil, List.append_nil, List.cons_append, List.nil_append]
  after_results; rfl

/-- `arange(384) // 6` as the host's floor division spells it. -/
def floorDiv6 : IVec S384 32 :=
  select
    (andi (cmpi .ne (signi (iotaInDim S384 32 0)) (broadcastInDim S384 ![] bcast_S_S384 (signi (id (constantI S_ 32 6#32)))))
      (cmpi .ne (Host.remsi (iotaInDim S384 32 0) (broadcastInDim S384 ![] bcast_S_S384 (id (constantI S_ 32 6#32))))
        (broadcastInDim S384 ![] bcast_S_S384 (constantI S_ 32 0#32))))
    (subi (Host.divsi (iotaInDim S384 32 0) (broadcastInDim S384 ![] bcast_S_S384 (id (constantI S_ 32 6#32))))
      (broadcastInDim S384 ![] bcast_S_S384 (constantI S_ 32 1#32)))
    (Host.divsi (iotaInDim S384 32 0) (broadcastInDim S384 ![] bcast_S_S384 (id (constantI S_ 32 6#32))))

/-- The group-indicator matrix as the host lines spell it. -/
def onesMat : FVec Ideal S384x64 .f32 :=
  uitofp .f32 (cmpi .eq
    (broadcastInDim S384x64 ![0, 1] bcast_S384x1_S384x64_0_1 (broadcastInDim S384x1 ![0] bcast_S384_S384x1_0 floorDiv6))
    (broadcastInDim S384x64 ![0, 1] bcast_S1x64_S384x64_0_1 (broadcastInDim S1x64 ![1] bcast_S64_S1x64_1 (iotaInDim S64 32 0))))

set_option maxHeartbeats 4000000 in
theorem V_v12 : (V m c main_v12 : S384x64.Idx → EReal) = onesMat := by
  unfold onesMat floorDiv6
  dsimp only [V, V0]
  simp only [hostOps0, hostOps0_1, hostOps0_2, List.flatten_cons, List.flatten_nil, List.append_nil, List.cons_append, List.nil_append]
  after_results; rfl

/-! ## Read at an index -/

/-- The floor division of one word by 6, as the host computes it. -/
def fdw (k : ℕ) : BitVec 32 :=
  Scalar.select
    (IntOp.andi
      (IntOp.cmpi .ne (if BitVec.ofNat 32 k = 0 then (0 : BitVec 32) else if (BitVec.ofNat 32 k).msb then (-1 : BitVec 32) else (1 : BitVec 32))
        (if (6#32 : BitVec 32) = 0 then (0 : BitVec 32) else if (6#32 : BitVec 32).msb then (-1 : BitVec 32) else (1 : BitVec 32)))
      (IntOp.cmpi .ne (IntOp.remsi .host (BitVec.ofNat 32 k) 6#32) 0#32))
    (IntOp.subi (IntOp.divsi .host (BitVec.ofNat 32 k) 6#32) 1#32) (IntOp.divsi .host (BitVec.ofNat 32 k) 6#32)

/-- For `k < 384` it is the natural-number quotient. -/
theorem fdw_eq : ∀ k : Fin 384, fdw k.val = BitVec.ofNat 32 (k.val / 6) := by decide +kernel

theorem floorDiv6_apply (k : Fin 384) : floorDiv6 (ix1 k) = BitVec.ofNat 32 (k.val / 6) := by
  rw [← fdw_eq k]
  unfold floorDiv6 fdw
  simp only [select, andi, cmpi, subi, Host.divsi, Host.remsi, signi, Cert.HostRowBroadcast.broadcastInDim_scalar_apply]
  rfl

/-- Two words of naturals below `2^32` are equal exactly when the naturals are. -/
theorem cmpi_eq_ofNat (a b : ℕ) (ha : a < 2 ^ 32) (hb : b < 2 ^ 32) :
    IntOp.cmpi .eq (BitVec.ofNat 32 a) (BitVec.ofNat 32 b) = if a = b then 1#1 else 0#1 := by
  by_cases h : a = b
  · subst h; simp [IntOp.cmpi]
  · have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    unfold IntOp.cmpi
    rw [if_neg h]
    show BitVec.ofBool (BitVec.ofNat 32 a == BitVec.ofNat 32 b) = 0#1
    rw [beq_eq_false_iff_ne.mpr hne]; rfl

/-- The group-indicator matrix at `(k, q)`. -/
theorem onesMat_apply (k : Fin 384) (q : Fin 64) : onesMat (ix2 k q) = if k.val / 6 = q.val then (1 : EReal) else 0 := by
  unfold onesMat
  show FloatOps.uitofp (F := Ideal) .f32 (IntOp.cmpi .eq
      (broadcastInDim S384x64 ![0, 1] bcast_S384x1_S384x64_0_1 (broadcastInDim S384x1 ![0] bcast_S384_S384x1_0 floorDiv6) (ix2 k q))
      (broadcastInDim S384x64 ![0, 1] bcast_S1x64_S384x64_0_1 (broadcastInDim S1x64 ![1] bcast_S64_S1x64_1 (iotaInDim S64 32 0)) (ix2 k q))) = _
  rw [Cert.HostRowMax.broadcastInDim_cols_apply, Cert.HostRowReads.broadcastInDim_col_apply,
    Cert.HostRowBroadcast.broadcastInDim_rows_apply, Cert.HostRowMax.broadcastInDim_row_apply, floorDiv6_apply]
  show FloatOps.uitofp (F := Ideal) .f32 (IntOp.cmpi .eq (BitVec.ofNat 32 (k.val / 6)) (BitVec.ofNat 32 q.val)) = _
  rw [cmpi_eq_ofNat _ _ (by have := k.isLt; omega) (by have := q.isLt; omega)]
  by_cases h : k.val / 6 = q.val
  · rw [if_pos h, if_pos h]; show (((1#1 : BitVec 1).toNat : ℝ) : EReal) = 1; simp
  · rw [if_neg h, if_neg h]; show (((0#1 : BitVec 1).toNat : ℝ) : EReal) = 0; simp

/-- A [5000000, 6] array viewed [78125, 384], at `(r, 6·q + j)`. -/
theorem relaid6_apply (x : S5000000x6.Idx → EReal) (r : Fin 78125) (q : Fin 64) (j : Fin 6) (k : Fin 384) (n : Fin 5000000)
    (hk : k.val = 6 * q.val + j.val) (hn : n.val = 64 * r.val + q.val) :
    shapeCast S78125x384 x shapeCasts_S5000000x6_S78125x384 (ix2 r k) = x (ix2 n j) := by
  refine shapeCast_apply x _ (ix2 r k) (ix2 n j) ?_
  rw [Shape.rowMajor_val_two, Shape.rowMajor_val_two]
  show n.val * 6 + j.val = r.val * 384 + k.val
  omega

/-- A [5000000] vector viewed [78125, 64], at `(r, q)`. -/
theorem relaid1_apply {α : Type} (x : S5000000.Idx → α) (r : Fin 78125) (q : Fin 64) (n : Fin 5000000)
    (hn : n.val = 64 * r.val + q.val) :
    shapeCast S78125x64 x shapeCasts_S5000000_S78125x64 (ix2 r q) = x (ix1 n) := by
  refine shapeCast_apply x _ (ix2 r q) (ix1 n) ?_
  rw [Shape.rowMajor_val_two, Shape.rowMajor_val_one]
  show n.val = r.val * 64 + q.val
  omega

end Cert.KernelIdeal.Entry

end
-- ==== Proof.KScatter.lean ====
/-
  Where the kernel's two-column scatter puts an update.

  The updates are a [5000000, 2] array, the start indices the particle ids as a column [5000000, 1]; update
  `(n, b)` lands at bucket row `id n` (read signed, dropped when outside `0 … 49999`), column `b`.
-/
import proofs.«100011_j45432164057703_2_alg».proof.KernelIdeal
import proofs.«100011_j45432164057703_2_alg».proof.Proof.Gen.KernelIdeal
import Idealize.ShloMosaic.Lib.ValueIdx

noncomputable section

namespace Cert.KernelIdeal.Scatter

open Cert.KernelIdeal Idealize.ShloMosaic Idealize.ShloMosaic.ValueIdx

/-- The two-column scatter's dimension numbers. -/
abbrev D2 : ScatterDims S50000x2 S5000000x1 S5000000x2 := scatter_S50000x2_S5000000x1_S5000000x2_1_0_0_1

/-- The scatter-indices index an update reads its one start component at: its row, column 0. -/
theorem siIdx0 (j : S5000000x2.Idx) (h : 0 < D2.scatterDimsToOperandDims.length) : D2.siIdx j ⟨0, h⟩ = ix2 (j 0) 0 := by
  funext b; apply Fin.ext
  match b with
  | ⟨0, _⟩ => rfl
  | ⟨1, _⟩ => rfl
theorem start0 (j : S5000000x2.Idx) (idx : IVec S5000000x1 32) :
    D2.start j idx 0 = (idx (ix2 (j 0) 0)).toInt := by
  unfold ScatterDims.start
  rw [dif_pos (by decide)]
  exact congrArg (fun z => (idx z).toInt) (siIdx0 j _)
theorem start1 (j : S5000000x2.Idx) (idx : IVec S5000000x1 32) : D2.start j idx 1 = 0 := rfl
theorem window0 (j : S5000000x2.Idx) : D2.window j 0 = 0 := rfl
theorem window1 (j : S5000000x2.Idx) : D2.window j 1 = (j 1).val := rfl

/-- Update `j` lands at `i` exactly when its particle id is `i`'s row and its column is `i`'s. -/
theorem lands_iff (j : S5000000x2.Idx) (idx : IVec S5000000x1 32) (i : S50000x2.Idx) :
    D2.resultIdx? j idx = some i ↔ (idx (ix2 (j 0) 0)).toInt = ((i 0).val : Int) ∧ (j 1).val = (i 1).val := by
  unfold ScatterDims.resultIdx?
  split
  · rename_i h
    rw [Option.some.injEq]
    constructor
    · intro e
      have e0 := congrArg (fun f => (f 0).val) e
      have e1 := congrArg (fun f => (f 1).val) e
      simp only [start0, start1, window0, window1] at e0 e1
      have h0 := h 0
      rw [start0, window0] at h0
      refine ⟨by omega, by omega⟩
    · rintro ⟨h0, h1⟩
      funext a
      apply Fin.ext
      match a with
      | ⟨0, _⟩ => show (D2.start j idx 0 + D2.window j 0).toNat = (i 0).val; rw [start0, window0]; omega
      | ⟨1, _⟩ => show (D2.start j idx 1 + D2.window j 1).toNat = (i 1).val; rw [start1, window1]; omega
  · rename_i h
    constructor
    · intro e; exact absurd e (by simp)
    · rintro ⟨h0, h1⟩
      exfalso; apply h
      intro a
      match a with
      | ⟨0, _⟩ =>
        show 0 ≤ D2.start j idx 0 + D2.window j 0 ∧ D2.start j idx 0 + D2.window j 0 < (50000 : Nat)
        rw [start0, window0]; have := (i 0).isLt
        have h5 : ((i 0).val : Int) < 50000 := by exact_mod_cast this
        omega
      | ⟨1, _⟩ =>
        show 0 ≤ D2.start j idx 1 + D2.window j 1 ∧ D2.start j idx 1 + D2.window j 1 < (2 : Nat)
        rw [start1, window1]; have := (j 1).isLt
        have h2 : ((j 1).val : Int) < 2 := by exact_mod_cast this
        omega

end Cert.KernelIdeal.Scatter

end
-- ==== Proof.HitSpec.lean ====
/-
  What one hit contributes, independent of either program.

  A hit with particle id `pid` and flag `rc` is VALID when both are positive (as signed 32-bit words); its weight
  is 1 when valid and 0 otherwise; its squared error is the sum over the six track parameters of
  `(pred − track)²`. Both programs scatter-sum `error · weight` and `weight` over the particle ids.
-/
import Idealize.ShloMosaic.PureOps.Ideal
import Idealize.ShloMosaic.PureOps.Ideal.Laws

noncomputable section

open scoped BigOperators

namespace Cert.HitSpec

open Idealize.ShloMosaic

/-- The validity bit of a hit. -/
def hitBit (pid rc : BitVec 32) : BitVec 1 := IntOp.andi (IntOp.cmpi .sgt rc 0#32) (IntOp.cmpi .sgt pid 0#32)
/-- Its weight, 0 or 1. -/
def hitWeight (pid rc : BitVec 32) : EReal := (((hitBit pid rc).toNat : ℝ) : EReal)
/-- Its squared error over the six parameters. -/
def hitErr (x y : Fin 6 → EReal) : EReal := ∑ j : Fin 6, (x j - y j) * (x j - y j)

/-- A bit widened to 32 bits and read signed is the bit. -/
theorem toInt_setWidth_bit : ∀ b : BitVec 1, (b.setWidth 32).toInt = (b.toNat : ℤ) := by decide
/-- A bit and the one bit is the bit. -/
theorem andi_one : ∀ b : BitVec 1, IntOp.andi b 1#1 = b := by decide

/-- The word of row `r`'s number, put together from its block and its place in the block, is `r`'s word. -/
theorem word_of_row (r : ℕ) (hr : r < 78125) :
    BitVec.ofNat 32 (r / 2048) * 2048#32 + BitVec.ofNat 32 (r % 2048) = BitVec.ofNat 32 r := by
  apply BitVec.eq_of_toNat_eq
  simp only [BitVec.toNat_add, BitVec.toNat_mul, BitVec.toNat_ofNat]
  omega

/-- A row number below 78125 is below 78125 as a signed 32-bit word. -/
theorem slt_row (r : ℕ) (hr : r < 78125) : (BitVec.ofNat 32 r).slt 78125#32 = true := by
  rw [BitVec.slt, decide_eq_true_eq, BitVec.toInt_eq_toNat_cond, BitVec.toInt_eq_toNat_cond]
  simp only [BitVec.toNat_ofNat]
  have h1 : r % 2 ^ 32 = r := Nat.mod_eq_of_lt (by omega)
  rw [h1]
  norm_num
  omega

/-- Every row of the [78125, ·] arrangement passes the kernel's row test: `2048·(r / 2048) + r % 2048 = r < 78125`
    as signed 32-bit words. -/
theorem row_in_range (r : ℕ) (hr : r < 78125) :
    IntOp.cmpi .slt (IntOp.addi (Scalar.muli (BitVec.ofNat 32 (r / 2048)) 2048#32) (BitVec.ofNat 32 (r % 2048))) 78125#32 = 1#1 := by
  show BitVec.ofBool ((BitVec.ofNat 32 (r / 2048) * 2048#32 + BitVec.ofNat 32 (r % 2048)).slt 78125#32) = 1#1
  rw [word_of_row r hr, slt_row r hr]; rfl

end Cert.HitSpec

end
-- ==== Proof.LibColumnSums.lean ====
/-
  General lemmas about sums over index sets, independent of any program.

  * `sum_vec`: a sum over the index set of a rank-1 shape `[n]` is the sum over its coordinate.
  * `sum_column`: over the index set of an `[n, 2]` array, the sum of the entries `(a, b)` whose row satisfies a
    predicate and whose column is a given one is the sum over the rows satisfying the predicate of that column's
    entries — a scatter-sum of two stacked columns, read one column at a time.
  * `sum_block_indicator`: a sum over `q * n` consecutive positions of terms weighted by the indicator of the
    block `b₀` of `n` consecutive positions (`k / n = b₀`) is the sum over that block, over the extended reals — a
    product with a block-diagonal matrix of ones, read one column at a time.
-/
import Idealize.ShloMosaic.Lib.ValueIdx
import Idealize.ShloMosaic.PureOps.Ideal
import Mathlib.Algebra.BigOperators.Fin
import Mathlib.Algebra.BigOperators.Group.Finset.Piecewise

noncomputable section

open scoped BigOperators

namespace Cert.ColumnSums

open Idealize.ShloMosaic Idealize.ShloMosaic.ValueIdx

/-- A sum over the index set of the rank-1 shape `[n]` is the sum over its coordinate. -/
theorem sum_vec {M : Type*} [AddCommMonoid M] {n : Nat} (f : (⟨1, ![n]⟩ : Shape).Idx → M) :
    ∑ i, f i = ∑ r : Fin n, f (ix1 r) := by
  let e : (⟨1, ![n]⟩ : Shape).Idx ≃ Fin n :=
    { toFun := fun i => i 0, invFun := fun r => ix1 r, left_inv := fun i => (eq_ix1 i).symm, right_inv := fun _ => rfl }
  rw [← Equiv.sum_comp e.symm f]
  rfl

/-- The entries of column `col` on the rows whose number satisfies `P`, summed over the two-column index set. -/
theorem sum_column {M : Type*} [AddCommMonoid M] {n : Nat} (P : ℕ → Prop) [hP : ∀ a, Decidable (P a)] (col : Fin 2)
    (u : (⟨2, ![n, 2]⟩ : Shape).Idx → M) :
    ∑ j : (⟨2, ![n, 2]⟩ : Shape).Idx, (if P (j 0).val ∧ (j 1).val = col.val then u j else 0)
      = ∑ i : (⟨1, ![n]⟩ : Shape).Idx, (if P (i 0).val then u (ix2 (i 0) col) else 0) := by
  rw [sum_idx2, sum_vec]
  refine Finset.sum_congr rfl fun a _ => ?_
  show ∑ b : Fin 2, (if P a.val ∧ b.val = col.val then u (ix2 a b) else 0) = if P a.val then u (ix2 a col) else 0
  rw [Fin.sum_univ_two]
  by_cases h : P a.val
  · match col with
    | ⟨0, _⟩ => simp [h]
    | ⟨1, _⟩ => simp [h]
  · simp [h]

/-- Positions `n·b + r`, `r < n`, lie in block `b`. -/
theorem block_div {n b r : Nat} (hr : r < n) : (n * b + r) / n = b := by
  rw [Nat.mul_add_div (by omega), Nat.div_eq_of_lt hr, Nat.add_zero]

/-- A sum over `q * n` positions weighted by the indicator of block `b₀` is the sum over that block. -/
theorem sum_block_indicator (q n : Nat) (b₀ : Fin q) (g : ℕ → EReal) :
    ∑ k : Fin (q * n), g k.val * (if k.val / n = b₀.val then (1 : EReal) else 0) = ∑ r : Fin n, g (n * b₀.val + r.val) := by
  have key : ∀ (b : Fin q) (r : Fin n), (r.val + n * b.val) / n = b.val := fun b r => by
    rw [Nat.add_comm]; exact block_div r.isLt
  calc ∑ k : Fin (q * n), g k.val * (if k.val / n = b₀.val then (1 : EReal) else 0)
      = ∑ p : Fin q × Fin n, g (finProdFinEquiv p).val * (if (finProdFinEquiv p).val / n = b₀.val then (1 : EReal) else 0) :=
        (Equiv.sum_comp finProdFinEquiv (fun k : Fin (q * n) => g k.val * (if k.val / n = b₀.val then (1 : EReal) else 0))).symm
    _ = ∑ b : Fin q, ∑ r : Fin n, g (r.val + n * b.val) * (if (r.val + n * b.val) / n = b₀.val then (1 : EReal) else 0) :=
        Fintype.sum_prod_type _
    _ = ∑ r : Fin n, g (r.val + n * b₀.val) * (if (r.val + n * b₀.val) / n = b₀.val then (1 : EReal) else 0) :=
        Finset.sum_eq_single b₀ (fun b _ hne => Finset.sum_eq_zero fun r _ => by
          rw [if_neg (by rw [key]; exact fun e => hne (Fin.ext e)), mul_zero]) (fun h => absurd (Finset.mem_univ _) h)
    _ = ∑ r : Fin n, g (n * b₀.val + r.val) := Finset.sum_congr rfl fun r _ => by
          rw [if_pos (key b₀ r), mul_one, Nat.add_comm]

end Cert.ColumnSums

end
-- ==== Proof.LibScatterSum.lean ====
/-
  The host's accumulating scatter at the ideal values, read at an element, for any shapes and dimension numbers:
  the operand's element plus the sum, over ALL updates, of the update when it lands on that element and of zero
  when it does not.
-/
import Idealize.ShloMosaic.PureOps.Ideal
import Idealize.ShloMosaic.PureOps.Ideal.Laws
import Mathlib.Algebra.BigOperators.Group.Finset.Piecewise

noncomputable section

open scoped BigOperators

namespace Cert.ScatterSum

open Idealize.ShloMosaic

/-- A sum over the updates that land on `i` is a sum over all updates of the update or zero. -/
theorem hostScatterAdd_apply {s si su : Shape} (d : ScatterDims s si su) {w : Nat} (x : s.Idx → EReal) (idx : IVec si w)
    (upd : su.Idx → EReal) (i : s.Idx) (g : su.Idx → EReal)
    (hg : ∀ j, (d.resultIdx? j idx = some i → g j = upd j) ∧ (d.resultIdx? j idx ≠ some i → g j = 0)) :
    (Host.scatterAdd (F := Ideal) (φ := .f32) d x idx upd : s.Idx → EReal) i = (x i : EReal) + ∑ j : su.Idx, g j := by
  show Ideal.hostScatterAdd d x idx upd i = _
  unfold Ideal.hostScatterAdd
  refine congrArg (x i + ·) ?_
  rw [Finset.sum_filter]
  refine Finset.sum_congr rfl fun j _ => ?_
  by_cases h : d.resultIdx? j idx = some i
  · rw [if_pos h, (hg j).1 h]
  · rw [if_neg h, (hg j).2 h]

end Cert.ScatterSum

end
-- ==== Proof.KPerHit.lean ====
/-
  The kernel's per-hit vectors and bucket sums, read at an index.

  Hit `n` sits at row `r = n / 64`, column `q = n % 64` of the [78125, 64] arrangement, and its six parameters at
  columns `6·q … 6·q + 5` of row `r` of the [78125, 384] one. The product of the squared differences with the
  group-indicator matrix picks exactly those six columns, so the weighted-error array holds, at `(r, q)`, the
  hit's squared error times its weight; the weight array holds its weight (row `r` always passes the kernel's
  row test). Flattened back to [5000000] they are the two columns the host stacks and scatter-sums.
-/
import proofs.«100011_j45432164057703_2_alg».proof.Proof.IdealTail
import proofs.«100011_j45432164057703_2_alg».proof.Proof.IdealEntry
import proofs.«100011_j45432164057703_2_alg».proof.Proof.KScatter
import proofs.«100011_j45432164057703_2_alg».proof.Proof.HitSpec
import proofs.«100011_j45432164057703_2_alg».proof.Proof.LibColumnSums
import proofs.«100011_j45432164057703_2_alg».proof.Proof.LibScatterSum

set_option maxRecDepth 16384

noncomputable section

open scoped BigOperators

namespace Cert.KernelIdeal.PerHit

open Cert.KernelIdeal Cert.KernelIdeal.Gen Cert.KernelIdeal.Payload Cert.KernelIdeal.Arrays Cert.KernelIdeal.Entry Cert.KernelIdeal.Tail Cert.HitSpec
open Idealize.ShloMosaic Idealize.ShloMosaic.ValueIdx

variable (a3 a6 : S5000000x6.Idx → EReal) (a5 a7 : S5000000.Idx → BitVec 32)

/-- A function of the columns of a 384-column row, as a function of the column's number. -/
def atCol (D : Fin 384 → EReal) (k : ℕ) : EReal := if h : k < 384 then D ⟨k, h⟩ else 0
theorem atCol_val (D : Fin 384 → EReal) (k : Fin 384) : atCol D k.val = D k := by unfold atCol; rw [dif_pos k.isLt]
theorem atCol_of_lt (D : Fin 384 → EReal) {k : ℕ} (h : k < 384) : atCol D k = D ⟨k, h⟩ := by unfold atCol; rw [dif_pos h]

/-- The weight array at `(r, q)` is hit `64·r + q`'s weight. -/
theorem wgtArr_apply (r : Fin 78125) (q : Fin 64) (n : Fin 5000000) (hn : n.val = 64 * r.val + q.val) :
    wgtArr (shapeCast S78125x64 a5 shapeCasts_S5000000_S78125x64) (shapeCast S78125x64 a7 shapeCasts_S5000000_S78125x64) (ix2 r q)
      = hitWeight (a5 (ix1 n)) (a7 (ix1 n)) := by
  unfold wgtArr
  rw [relaid1_apply a5 r q n hn, relaid1_apply a7 r q n hn]
  show ((((validBit (r.val / 2048) (r.val % 2048) (a5 (ix1 n)) (a7 (ix1 n))).setWidth 32).toInt : ℝ) : EReal) = _
  unfold validBit
  rw [row_in_range r.val r.isLt, Cert.HitSpec.andi_one, Cert.HitSpec.toInt_setWidth_bit]
  unfold hitWeight hitBit
  norm_cast

/-- The weighted-error array at `(r, q)` is hit `64·r + q`'s squared error times its weight. -/
theorem werrArr_apply (r : Fin 78125) (q : Fin 64) (n : Fin 5000000) (hn : n.val = 64 * r.val + q.val) :
    werrArr (shapeCast S78125x384 a3 shapeCasts_S5000000x6_S78125x384) (shapeCast S78125x384 a6 shapeCasts_S5000000x6_S78125x384)
        onesMat (shapeCast S78125x64 a5 shapeCasts_S5000000_S78125x64) (shapeCast S78125x64 a7 shapeCasts_S5000000_S78125x64) (ix2 r q)
      = hitErr (fun j => a3 (ix2 n j)) (fun j => a6 (ix2 n j)) * hitWeight (a5 (ix1 n)) (a7 (ix1 n)) := by
  unfold werrArr
  rw [wgtArr_apply a5 a7 r q n hn]
  refine congrArg (· * hitWeight (a5 (ix1 n)) (a7 (ix1 n))) ?_
  -- the squared differences along row `r`, as a function of the column's number
  let D : Fin 384 → EReal := fun k =>
    (shapeCast S78125x384 a3 shapeCasts_S5000000x6_S78125x384 (ix2 r k) - shapeCast S78125x384 a6 shapeCasts_S5000000x6_S78125x384 (ix2 r k))
      * (shapeCast S78125x384 a3 shapeCasts_S5000000x6_S78125x384 (ix2 r k) - shapeCast S78125x384 a6 shapeCasts_S5000000x6_S78125x384 (ix2 r k))
  have h1 : ∀ k : Fin 384, D k * onesMat (ix2 k q) = atCol D k.val * (if k.val / 6 = q.val then (1 : EReal) else 0) := fun k => by
    rw [onesMat_apply, atCol_val]
  show ∑ k : Fin 384, D k * onesMat (ix2 k q) = _
  rw [Finset.sum_congr rfl fun k _ => h1 k]
  have h2 := Cert.ColumnSums.sum_block_indicator 64 6 q (atCol D)
  refine (h2.trans ?_)
  unfold hitErr
  refine Finset.sum_congr rfl fun j => fun _ => ?_
  have hk : 6 * q.val + j.val < 384 := by have := q.isLt; have := j.isLt; omega
  rw [atCol_of_lt D hk]
  show (shapeCast S78125x384 a3 shapeCasts_S5000000x6_S78125x384 (ix2 r ⟨6 * q.val + j.val, hk⟩)
      - shapeCast S78125x384 a6 shapeCasts_S5000000x6_S78125x384 (ix2 r ⟨6 * q.val + j.val, hk⟩))
    * (shapeCast S78125x384 a3 shapeCasts_S5000000x6_S78125x384 (ix2 r ⟨6 * q.val + j.val, hk⟩)
      - shapeCast S78125x384 a6 shapeCasts_S5000000x6_S78125x384 (ix2 r ⟨6 * q.val + j.val, hk⟩)) = _
  rw [relaid6_apply a3 r q j ⟨6 * q.val + j.val, hk⟩ n rfl hn, relaid6_apply a6 r q j ⟨6 * q.val + j.val, hk⟩ n rfl hn]

/-- A [78125, 64] array flattened, at hit `n`. -/
theorem flat_apply (o : S78125x64.Idx → EReal) (n : Fin 5000000) (r : Fin 78125) (q : Fin 64) (hn : n.val = 64 * r.val + q.val) :
    shapeCast S5000000 o shapeCasts_S78125x64_S5000000 (ix1 n) = o (ix2 r q) := by
  refine shapeCast_apply o _ (ix1 n) (ix2 r q) ?_
  rw [Shape.rowMajor_val_two, Shape.rowMajor_val_one]
  show r.val * 64 + q.val = n.val
  omega

/-- The stacked array's two columns. -/
theorem stacked_col0 (o0 o1 : FVec Ideal S78125x64 .f32) (a : Fin 5000000) :
    stacked o0 o1 (ix2 a (0 : Fin 2)) = shapeCast S5000000 o0 shapeCasts_S78125x64_S5000000 (ix1 a) := by
  unfold stacked
  rw [concatenate_pair_apply_left (s₁ := S5000000x1) (s₂ := S5000000x1) (1 : Fin 2) _ _ _ (ix2 a (0 : Fin 2)) rfl (ix2 a (0 : Fin 1))
    (fun b => by match b with | ⟨0, _⟩ => rfl | ⟨1, _⟩ => rfl)]
  exact Cert.HostRowReads.broadcastInDim_col_apply _ _ a 0
theorem stacked_col1 (o0 o1 : FVec Ideal S78125x64 .f32) (a : Fin 5000000) :
    stacked o0 o1 (ix2 a (1 : Fin 2)) = shapeCast S5000000 o1 shapeCasts_S78125x64_S5000000 (ix1 a) := by
  unfold stacked
  rw [concatenate_pair_apply_right (s₁ := S5000000x1) (s₂ := S5000000x1) (1 : Fin 2) _ _ _ (ix2 a (1 : Fin 2)) rfl rfl (ix2 a (0 : Fin 1))
    (fun b hb => by match b with | ⟨0, _⟩ => rfl | ⟨1, _⟩ => exact absurd rfl hb) rfl]
  exact Cert.HostRowReads.broadcastInDim_col_apply _ _ a 0

/-- A bucket of the kernel's two-column scatter-sum: from zero, the updates of that column whose particle id is
    the bucket's row. -/
theorem buckets_apply (o0 o1 : FVec Ideal S78125x64 .f32) (x5 : IVec S5000000 32) (p : Fin 50000) (col : Fin 2) :
    buckets o0 o1 x5 (ix2 p col)
      = Ideal.ofBits .f32 0x00000000#32
        + ∑ i : S5000000.Idx, (if (x5 i).toInt = (p.val : ℤ) then stacked o0 o1 (ix2 (i 0) col) else 0) := by
  have hidx : ∀ a : Fin 5000000, broadcastInDim S5000000x1 ![0] bcast_S5000000_S5000000x1_0 x5 (ix2 a (0 : Fin 1)) = x5 (ix1 a) :=
    fun a => Cert.HostRowReads.broadcastInDim_col_apply x5 _ a 0
  have hz : broadcastInDim S50000x2 ![] bcast_S_S50000x2 (constant (F := Ideal) S_ .f32 0x00000000#32) (ix2 p col)
      = Ideal.ofBits .f32 0x00000000#32 := by
    rw [Cert.HostRowBroadcast.broadcastInDim_scalar_apply, constant_apply]
  have hl : ∀ (a : Fin 5000000) (b : Fin 2), Cert.KernelIdeal.Scatter.D2.resultIdx? (ix2 a b)
      (broadcastInDim S5000000x1 ![0] bcast_S5000000_S5000000x1_0 x5) = some (ix2 p col)
      ↔ ((x5 (ix1 a)).toInt = (p.val : ℤ) ∧ b.val = col.val) := fun a b => by
    rw [Cert.KernelIdeal.Scatter.lands_iff]
    show (broadcastInDim S5000000x1 ![0] bcast_S5000000_S5000000x1_0 x5 (ix2 a (0 : Fin 1))).toInt = (p.val : ℤ) ∧ b.val = col.val ↔ _
    rw [hidx a]
  show Host.scatterAdd (F := Ideal) Cert.KernelIdeal.Scatter.D2
    (broadcastInDim S50000x2 ![] bcast_S_S50000x2 (constant (F := Ideal) S_ .f32 0x00000000#32))
    (broadcastInDim S5000000x1 ![0] bcast_S5000000_S5000000x1_0 x5) (stacked o0 o1) (ix2 p col) = _
  rw [Cert.ScatterSum.hostScatterAdd_apply Cert.KernelIdeal.Scatter.D2
    (broadcastInDim S50000x2 ![] bcast_S_S50000x2 (constant (F := Ideal) S_ .f32 0x00000000#32))
    (broadcastInDim S5000000x1 ![0] bcast_S5000000_S5000000x1_0 x5) (stacked o0 o1) (ix2 p col)
    (fun j => if (x5 (ix1 (j 0))).toInt = (p.val : ℤ) ∧ (j 1).val = col.val then stacked o0 o1 j else 0) ?hg, hz]
  · refine congrArg (_ + ·) ?_
    rw [sum_idx2, Cert.ColumnSums.sum_vec]
    refine Finset.sum_congr rfl fun a _ => ?_
    show ∑ b : Fin 2, (if (x5 (ix1 a)).toInt = (p.val : ℤ) ∧ b.val = col.val then stacked o0 o1 (ix2 a b) else 0)
      = if (x5 (ix1 a)).toInt = (p.val : ℤ) then stacked o0 o1 (ix2 a col) else 0
    rw [Fin.sum_univ_two]
    by_cases h : (x5 (ix1 a)).toInt = (p.val : ℤ)
    · match col with
      | ⟨0, _⟩ => rw [if_pos ⟨h, rfl⟩, if_neg (fun e => Nat.one_ne_zero e.2), if_pos h, add_zero]; rfl
      | ⟨1, _⟩ => rw [if_neg (fun e => Nat.zero_ne_one e.2), if_pos ⟨h, rfl⟩, if_pos h, zero_add]; rfl
    · rw [if_neg (fun e => h e.1), if_neg (fun e => h e.1), if_neg h, add_zero]
  · intro j
    obtain ⟨a, b, rfl⟩ : ∃ (a : Fin 5000000) (b : Fin 2), j = ix2 a b := ⟨j 0, j 1, eq_ix2 j⟩
    constructor
    · intro h; exact if_pos ((hl a b).mp h)
    · intro h; exact if_neg (fun e => h ((hl a b).mpr e))

/-- The buckets' columns, read at a bucket. -/
theorem column0_apply (b : FVec Ideal S50000x2 .f32) (p : Fin 50000) : column0 b (ix1 p) = b (ix2 p (0 : Fin 2)) := by
  unfold column0
  rw [shapeCast_apply _ shapeCasts_S50000x1_S50000 (ix1 p) (ix2 p (0 : Fin 1)) (by
    rw [Shape.rowMajor_val_two, Shape.rowMajor_val_one]; show p.val * 1 + 0 = p.val; omega)]
  exact extractStridedSlice_apply ![0, 0] b _ (ix2 p (0 : Fin 1)) (ix2 p (0 : Fin 2))
    (fun a => by match a with | ⟨0, _⟩ => show p.val = 0 + p.val; omega | ⟨1, _⟩ => rfl)
theorem column1_apply (b : FVec Ideal S50000x2 .f32) (p : Fin 50000) : column1 b (ix1 p) = b (ix2 p (1 : Fin 2)) := by
  unfold column1
  rw [shapeCast_apply _ shapeCasts_S50000x1_S50000 (ix1 p) (ix2 p (0 : Fin 1)) (by
    rw [Shape.rowMajor_val_two, Shape.rowMajor_val_one]; show p.val * 1 + 0 = p.val; omega)]
  exact extractStridedSlice_apply ![0, 1] b _ (ix2 p (0 : Fin 1)) (ix2 p (1 : Fin 2))
    (fun a => by match a with | ⟨0, _⟩ => show p.val = 0 + p.val; omega | ⟨1, _⟩ => rfl)

end Cert.KernelIdeal.PerHit

end
-- ==== Proof.RefRun.lean ====
/-
  The reference program's run, read back: its @main is forty-two host operations, one after the other, so every
  weakly fair execution terminates with each buffer at the operations' composed term of the arguments and the
  arguments unchanged. The result is stated through the quantities the proof speaks of: the per-hit validity
  weight `weight` (1 where the hit is reconstructable and belongs to a particle, else 0), the per-hit squared
  error `sqerr` (the sum over the six track parameters of the squared difference), their scatter-sums over the
  particle ids into 50000 buckets (`sums` of error times weight, `counts` of the weight), and the common last
  stage `GroupMean.groupMean`.
-/
import proofs.«100011_j45432164057703_2_alg».proof.Proof.Gen.ReferenceIdeal
import proofs.«100011_j45432164057703_2_alg».proof.Proof.GroupMean
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The validity weight of each hit: 1 where `reconstructable > 0` and `particle_id > 0`, else 0. -/
def weight (x5 x7 : (⟨S5000000, .i32⟩ : BufTy).Contents (Elt F)) : (⟨S5000000, .f32⟩ : BufTy).Contents (Elt F) :=
  uitofp .f32 (andi (cmpi .sgt x7 (broadcastInDim S5000000 ![] bcast_S_S5000000 (constantI S_ 32 0#32)))
    (cmpi .sgt x5 (broadcastInDim S5000000 ![] bcast_S_S5000000 (constantI S_ 32 0#32))))

/-- The squared error of each hit: the sum over the six parameters of `(pred − track)²`. -/
def sqerr (x3 x6 : (⟨S5000000x6, .f32⟩ : BufTy).Contents (Elt F)) : (⟨S5000000, .f32⟩ : BufTy).Contents (Elt F) :=
  Host.reduceAdd (mulf (subf x3 x6) (subf x3 x6)) (constant (F := F) S_ .f32 0x00000000#32) reducesTo_S5000000x6_S5000000_d1 h_S_

/-- The scatter-sum of a per-hit vector over the particle ids into the 50000 buckets, from zero. -/
def bucketSum (x5 : (⟨S5000000, .i32⟩ : BufTy).Contents (Elt F)) (u : (⟨S5000000, .f32⟩ : BufTy).Contents (Elt F)) :
    (⟨S50000, .f32⟩ : BufTy).Contents (Elt F) :=
  Host.scatterAdd scatter_S50000_S5000000x1_S5000000_n_0_0_1
    (broadcastInDim S50000 ![] bcast_S_S50000 (constant (F := F) S_ .f32 0x00000000#32))
    (broadcastInDim S5000000x1 ![0] bcast_S5000000_S5000000x1_0 x5) u

/-- The result: the group mean of the bucket sums of error times weight over the bucket sums of the weight. -/
def result (x3 : (⟨S5000000x6, .f32⟩ : BufTy).Contents (Elt F)) (x5 : (⟨S5000000, .i32⟩ : BufTy).Contents (Elt F))
    (x6 : (⟨S5000000x6, .f32⟩ : BufTy).Contents (Elt F)) (x7 : (⟨S5000000, .i32⟩ : BufTy).Contents (Elt F)) :
    (⟨S_, .f32⟩ : BufTy).Contents (Elt F) :=
  Cert.GroupMean.groupMean (F := F) bcast_S_S50000 reducesTo_S50000_S_d0 h_S_ natLt_1_32
    (bucketSum x5 (mulf (sqerr x3 x6) (weight x5 x7))) (bucketSum x5 (weight x5 x7))

/-- @main's 42 operations, in order (a called function's operations stand in its call's place, spelt `TRef.…`). -/
abbrev ops : List (HloOp τ sig (Elt F)) :=
  [ nullary main_c (constantI S_ 32 0#32),
    unary main_c main_v0 (broadcastInDim S5000000 ![] bcast_S_S5000000 : (⟨S_, .i32⟩ : BufTy).Contents (Elt F) → (⟨S5000000, .i32⟩ : BufTy).Contents (Elt F)),
    binary main_arg7 main_v0 main_v1 (cmpi .sgt : (⟨S5000000, .i32⟩ : BufTy).Contents (Elt F) → (⟨S5000000, .i32⟩ : BufTy).Contents (Elt F) → (⟨S5000000, .i1⟩ : BufTy).Contents (Elt F)),
    nullary main_c_0 (constantI S_ 32 0#32),
    unary main_c_0 main_v2 (broadcastInDim S5000000 ![] bcast_S_S5000000 : (⟨S_, .i32⟩ : BufTy).Contents (Elt F) → (⟨S5000000, .i32⟩ : BufTy).Contents (Elt F)),
    binary main_arg5 main_v2 main_v3 (cmpi .sgt : (⟨S5000000, .i32⟩ : BufTy).Contents (Elt F) → (⟨S5000000, .i32⟩ : BufTy).Contents (Elt F) → (⟨S5000000, .i1⟩ : BufTy).Contents (Elt F)),
    binary main_v1 main_v3 main_v4 (andi : (⟨S5000000, .i1⟩ : BufTy).Contents (Elt F) → (⟨S5000000, .i1⟩ : BufTy).Contents (Elt F) → (⟨S5000000, .i1⟩ : BufTy).Contents (Elt F)),
    unary main_v4 main_v5 (uitofp .f32 : (⟨S5000000, .i1⟩ : BufTy).Contents (Elt F) → (⟨S5000000, .f32⟩ : BufTy).Contents (Elt F)),
    binary main_arg3 main_arg6 main_v6 (subf : (⟨S5000000x6, .f32⟩ : BufTy).Contents (Elt F) → (⟨S5000000x6, .f32⟩ : BufTy).Contents (Elt F) → (⟨S5000000x6, .f32⟩ : BufTy).Contents (Elt F)),
    binary main_v6 main_v6 main_v7 (mulf : (⟨S5000000x6, .f32⟩ : BufTy).Contents (Elt F) → (⟨S5000000x6, .f32⟩ : BufTy).Contents (Elt F) → (⟨S5000000x6, .f32⟩ : BufTy).Contents (Elt F)),
    nullary main_cst (constant S_ .f32 0x00000000#32),
    binary main_v7 main_cst main_v8 ((fun x v => Host.reduceAdd x v reducesTo_S5000000x6_S5000000_d1 h_S_) : (⟨S5000000x6, .f32⟩ : BufTy).Contents (Elt F) → (⟨S_, .f32⟩ : BufTy).Contents (Elt F) → (⟨S5000000, .f32⟩ : BufTy).Contents (Elt F)),
    binary main_v8 main_v5 main_v9 (mulf : (⟨S5000000, .f32⟩ : BufTy).Contents (Elt F) → (⟨S5000000, .f32⟩ : BufTy).Contents (Elt F) → (⟨S5000000, .f32⟩ : BufTy).Contents (Elt F)),
    nullary main_cst_1 (constant S_ .f32 0x00000000#32),
    unary main_cst_1 main_v10 (broadcastInDim S50000 ![] bcast_S_S50000 : (⟨S_, .f32⟩ : BufTy).Contents (Elt F) → (⟨S50000, .f32⟩ : BufTy).Contents (Elt F)),
    unary main_arg5 main_v11 (broadcastInDim S5000000x1 ![0] bcast_S5000000_S5000000x1_0 : (⟨S5000000, .i32⟩ : BufTy).Contents (Elt F) → (⟨S5000000x1, .i32⟩ : BufTy).Contents (Elt F)),
    ternary main_v10 main_v11 main_v9 main_v12 ((fun x i u => Host.scatterAdd scatter_S50000_S5000000x1_S5000000_n_0_0_1 x i u) : (⟨S50000, .f32⟩ : BufTy).Contents (Elt F) → (⟨S5000000x1, .i32⟩ : BufTy).Contents (Elt F) → (⟨S5000000, .f32⟩ : BufTy).Contents (Elt F) → (⟨S50000, .f32⟩ : BufTy).Contents (Elt F)),
    nullary main_cst_2 (constant S_ .f32 0x00000000#32),
    unary main_cst_2 main_v13 (broadcastInDim S50000 ![] bcast_S_S50000 : (⟨S_, .f32⟩ : BufTy).Contents (Elt F) → (⟨S50000, .f32⟩ : BufTy).Contents (Elt F)),
    unary main_arg5 main_v14 (broadcastInDim S5000000x1 ![0] bcast_S5000000_S5000000x1_0 : (⟨S5000000, .i32⟩ : BufTy).Contents (Elt F) → (⟨S5000000x1, .i32⟩ : BufTy).Contents (Elt F)),
    ternary main_v13 main_v14 main_v5 main_v15 ((fun x i u => Host.scatterAdd scatter_S50000_S5000000x1_S5000000_n_0_0_1 x i u) : (⟨S50000, .f32⟩ : BufTy).Contents (Elt F) → (⟨S5000000x1, .i32⟩ : BufTy).Contents (Elt F) → (⟨S5000000, .f32⟩ : BufTy).Contents (Elt F) → (⟨S50000, .f32⟩ : BufTy).Contents (Elt F)),
    nullary main_cst_3 (constant S_ .f32 0x00000000#32),
    unary main_cst_3 main_v16 (broadcastInDim S50000 ![] bcast_S_S50000 : (⟨S_, .f32⟩ : BufTy).Contents (Elt F) → (⟨S50000, .f32⟩ : BufTy).Contents (Elt F)),
    binary main_v15 main_v16 main_v17 (cmpf .ogt : (⟨S50000, .f32⟩ : BufTy).Contents (Elt F) → (⟨S50000, .f32⟩ : BufTy).Contents (Elt F) → (⟨S50000, .i1⟩ : BufTy).Contents (Elt F)),
    nullary main_cst_4 (constant S_ .f32 0x3F800000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v17) (TRef.of (T := ⟨S50000, .f32⟩) main_v15) (TRef.of (T := ⟨S50000, .f32⟩) main_call0_v1) (TRef.of (T := ⟨S50000, .f32⟩) main_v18) select,
    binary main_v12 main_v18 main_v19 (Host.divf : (⟨S50000, .f32⟩ : BufTy).Contents (Elt F) → (⟨S50000, .f32⟩ : BufTy).Contents (Elt F) → (⟨S50000, .f32⟩ : BufTy).Contents (Elt F)),
    nullary main_cst_5 (constant S_ .f32 0x00000000#32),
    TRef.unary (TRef.of (T := ⟨S_, .f32⟩) main_cst_5) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v17) (TRef.of (T := ⟨S50000, .f32⟩) main_v19) (TRef.of (T := ⟨S50000, .f32⟩) main_call1_v1) (TRef.of (T := ⟨S50000, .f32⟩) main_v20) select,
    unary main_v17 main_v21 ((extui 32 · natLt_1_32) : (⟨S50000, .i1⟩ : BufTy).Contents (Elt F) → (⟨S50000, .i32⟩ : BufTy).Contents (Elt F)),
    nullary main_c_6 (constantI S_ 32 0#32),
    binary main_v21 main_c_6 main_v22 ((fun x v => Host.reduce IntOp.addi x v reducesTo_S50000_S_d0 h_S_) : (⟨S50000, .i32⟩ : BufTy).Contents (Elt F) → (⟨S_, .i32⟩ : BufTy).Contents (Elt F) → (⟨S_, .i32⟩ : BufTy).Contents (Elt F)),
    unary main_v22 main_v23 (sitofp .f32 : (⟨S_, .i32⟩ : BufTy).Contents (Elt F) → (⟨S_, .f32⟩ : BufTy).Contents (Elt F)),
    nullary main_cst_7 (constant S_ .f32 0x00000000#32),
    binary main_v20 main_cst_7 main_v24 ((fun x v => Host.reduceAdd x v reducesTo_S50000_S_d0 h_S_) : (⟨S50000, .f32⟩ : BufTy).Contents (Elt F) → (⟨S_, .f32⟩ : BufTy).Contents (Elt F) → (⟨S_, .f32⟩ : BufTy).Contents (Elt F)),
    nullary main_cst_8 (constant S_ .f32 0x42C80000#32),
    binary main_cst_8 main_v24 main_v25 (mulf : (⟨S_, .f32⟩ : BufTy).Contents (Elt F) → (⟨S_, .f32⟩ : BufTy).Contents (Elt F) → (⟨S_, .f32⟩ : BufTy).Contents (Elt F)),
    binary main_v25 main_v23 main_v26 (Host.divf : (⟨S_, .f32⟩ : BufTy).Contents (Elt F) → (⟨S_, .f32⟩ : BufTy).Contents (Elt F) → (⟨S_, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., binary_bufs_sub .., unary_bufs_sub .., binary_bufs_sub .., binary_bufs_sub .., nullary_bufs_sub .., binary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., binary_bufs_sub .., nullary_bufs_sub .., unary_bufs_sub .., unary_bufs_sub .., ternary_bufs_sub .., unary_bufs_sub .., nullary_bufs_sub .., binary_bufs_sub .., unary_bufs_sub .., nullary_bufs_sub .., binary_bufs_sub .., nullary_bufs_sub .., binary_bufs_sub .., binary_bufs_sub ..⟩

set_option maxRecDepth 8192 in
set_option maxHeartbeats 2000000 in
/-- On every device, for any float values, from any memory with zero counters: every weakly fair execution of
    @main terminates with the result buffer at `result` of the four arguments it reads and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = result (F := F) (m ((c.tc : Thread nD τ).loc main_arg3)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v26).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HostRun

end
-- ==== Proof.RScatter.lean ====
/-
  Where the reference's scatter puts an update.

  The updates are a [5000000] vector, the start indices the particle ids as a column [5000000, 1]; update `n`
  lands at bucket `id n` (read signed, dropped when outside `0 … 49999`).
-/
import proofs.«100011_j45432164057703_2_alg».proof.ReferenceIdeal
import proofs.«100011_j45432164057703_2_alg».proof.Proof.Gen.ReferenceIdeal
import Idealize.ShloMosaic.Lib.ValueIdx

noncomputable section

namespace Cert.ReferenceIdeal.Scatter

open Cert.ReferenceIdeal Idealize.ShloMosaic Idealize.ShloMosaic.ValueIdx

/-- The scatter's dimension numbers. -/
abbrev D1 : ScatterDims S50000 S5000000x1 S5000000 := scatter_S50000_S5000000x1_S5000000_n_0_0_1

/-- The scatter-indices index an update reads its one start component at: its row, column 0. -/
theorem siIdx0 (n : S5000000.Idx) (h : 0 < D1.scatterDimsToOperandDims.length) : D1.siIdx n ⟨0, h⟩ = ix2 (n 0) 0 := by
  funext b; apply Fin.ext
  match b with
  | ⟨0, _⟩ => rfl
  | ⟨1, _⟩ => rfl
theorem start0 (n : S5000000.Idx) (idx : IVec S5000000x1 32) :
    D1.start n idx 0 = (idx (ix2 (n 0) 0)).toInt := by
  unfold ScatterDims.start
  rw [dif_pos (by decide)]
  exact congrArg (fun z => (idx z).toInt) (siIdx0 n _)
theorem window0 (n : S5000000.Idx) : D1.window n 0 = 0 := rfl

/-- Update `n` lands at bucket `i` exactly when its particle id is `i`. -/
theorem lands_iff (n : S5000000.Idx) (idx : IVec S5000000x1 32) (i : S50000.Idx) :
    D1.resultIdx? n idx = some i ↔ (idx (ix2 (n 0) 0)).toInt = ((i 0).val : Int) := by
  unfold ScatterDims.resultIdx?
  split
  · rename_i h
    rw [Option.some.injEq]
    constructor
    · intro e
      have e0 := congrArg (fun f => (f 0).val) e
      simp only [start0, window0] at e0
      have h0 := h 0
      rw [start0, window0] at h0
      omega
    · intro h0
      funext a
      apply Fin.ext
      match a with
      | ⟨0, _⟩ => show (D1.start n idx 0 + D1.window n 0).toNat = (i 0).val; rw [start0, window0]; omega
  · rename_i h
    constructor
    · intro e; exact absurd e (by simp)
    · intro h0
      exfalso; apply h
      intro a
      match a with
      | ⟨0, _⟩ =>
        show 0 ≤ D1.start n idx 0 + D1.window n 0 ∧ D1.start n idx 0 + D1.window n 0 < (50000 : Nat)
        rw [start0, window0]; have := (i 0).isLt
        have h5 : ((i 0).val : Int) < 50000 := by exact_mod_cast this
        omega

end Cert.ReferenceIdeal.Scatter

end
-- ==== Proof.RPerHit.lean ====
/-
  The reference's per-hit vectors and bucket sums, read at an index.
-/
import proofs.«100011_j45432164057703_2_alg».proof.Proof.RefRun
import proofs.«100011_j45432164057703_2_alg».proof.Proof.RScatter
import proofs.«100011_j45432164057703_2_alg».proof.Proof.HitSpec
import proofs.«100011_j45432164057703_2_alg».proof.Proof.LibScatterSum
import proofs.«100011_j45432164057703_2_alg».proof.Proof.LibHostRowReads
import proofs.«100011_j45432164057703_2_alg».proof.Proof.LibHostRowBroadcast
import Idealize.ShloMosaic.Lib.ValueIdx
import Idealize.ShloMosaic.Lib.Pipeline.Value
import Idealize.ShloMosaic.PureOps.Ideal.Laws

noncomputable section

open scoped BigOperators

namespace Cert.ReferenceIdeal.PerHit

open Cert.ReferenceIdeal Cert.ReferenceIdeal.Gen Cert.ReferenceIdeal.HostRun Cert.HitSpec
open Idealize.ShloMosaic Idealize.ShloMosaic.ValueIdx

variable (x3 x6 : S5000000x6.Idx → EReal) (x5 x7 : S5000000.Idx → BitVec 32)

/-- The reference's weight at hit `n`. -/
theorem weight_hit (n : Fin 5000000) : weight (F := Ideal) x5 x7 (ix1 n) = hitWeight (x5 (ix1 n)) (x7 (ix1 n)) := by
  unfold weight
  show FloatOps.uitofp (F := Ideal) .f32 (IntOp.andi
      (IntOp.cmpi .sgt (x7 (ix1 n)) (broadcastInDim S5000000 ![] bcast_S_S5000000 (constantI S_ 32 0#32) (ix1 n)))
      (IntOp.cmpi .sgt (x5 (ix1 n)) (broadcastInDim S5000000 ![] bcast_S_S5000000 (constantI S_ 32 0#32) (ix1 n)))) = _
  rw [Cert.HostRowBroadcast.broadcastInDim_scalar_apply]
  rfl

/-- The reference's squared error at hit `n`. -/
theorem sqerr_hit (n : Fin 5000000) :
    sqerr (F := Ideal) x3 x6 (ix1 n) = hitErr (fun j => x3 (ix2 n j)) (fun j => x6 (ix2 n j)) := by
  unfold sqerr
  rw [Cert.HostRowReads.hostReduceAdd_row _ _ reducesTo_S5000000x6_S5000000_d1 (by decide) h_S_ n]
  rw [constant_apply, Ideal.ofBits_zero_f32, zero_add]
  rfl

/-- A bucket of the reference's scatter-sum: from zero, the updates whose particle id is the bucket. -/
theorem bucketSum_apply (v : S5000000.Idx → EReal) (p : Fin 50000) :
    bucketSum (F := Ideal) x5 v (ix1 p)
      = Ideal.ofBits .f32 0x00000000#32 + ∑ i : S5000000.Idx, (if (x5 i).toInt = (p.val : ℤ) then v i else 0) := by
  have hidx : ∀ a : Fin 5000000, broadcastInDim S5000000x1 ![0] bcast_S5000000_S5000000x1_0 x5 (ix2 a (0 : Fin 1)) = x5 (ix1 a) :=
    fun a => Cert.HostRowReads.broadcastInDim_col_apply x5 _ a 0
  have hz : broadcastInDim S50000 ![] bcast_S_S50000 (constant (F := Ideal) S_ .f32 0x00000000#32) (ix1 p) = Ideal.ofBits .f32 0x00000000#32 := by
    rw [Cert.HostRowBroadcast.broadcastInDim_scalar_apply, constant_apply]
  show Host.scatterAdd (F := Ideal) Cert.ReferenceIdeal.Scatter.D1
    (broadcastInDim S50000 ![] bcast_S_S50000 (constant (F := Ideal) S_ .f32 0x00000000#32))
    (broadcastInDim S5000000x1 ![0] bcast_S5000000_S5000000x1_0 x5) v (ix1 p) = _
  rw [Cert.ScatterSum.hostScatterAdd_apply Cert.ReferenceIdeal.Scatter.D1
    (broadcastInDim S50000 ![] bcast_S_S50000 (constant (F := Ideal) S_ .f32 0x00000000#32))
    (broadcastInDim S5000000x1 ![0] bcast_S5000000_S5000000x1_0 x5) v (ix1 p)
    (fun i => if (x5 i).toInt = (p.val : ℤ) then v i else 0) ?hg, hz]
  intro i
  obtain ⟨a, rfl⟩ : ∃ a : Fin 5000000, i = ix1 a := ⟨i 0, eq_ix1 i⟩
  have hl := Cert.ReferenceIdeal.Scatter.lands_iff (ix1 a) (broadcastInDim S5000000x1 ![0] bcast_S5000000_S5000000x1_0 x5) (ix1 p)
  have hl' : Cert.ReferenceIdeal.Scatter.D1.resultIdx? (ix1 a) (broadcastInDim S5000000x1 ![0] bcast_S5000000_S5000000x1_0 x5) = some (ix1 p)
      ↔ (x5 (ix1 a)).toInt = (p.val : ℤ) := by
    rw [hl]; show (broadcastInDim S5000000x1 ![0] bcast_S5000000_S5000000x1_0 x5 (ix2 a (0 : Fin 1))).toInt = (p.val : ℤ) ↔ _
    rw [hidx a]
  constructor
  · intro h; show (if (x5 (ix1 a)).toInt = (p.val : ℤ) then v (ix1 a) else 0) = v (ix1 a); rw [if_pos (hl'.mp h)]
  · intro h; show (if (x5 (ix1 a)).toInt = (p.val : ℤ) then v (ix1 a) else 0) = 0; rw [if_neg (fun e => h (hl'.mpr e))]

end Cert.ReferenceIdeal.PerHit

end
-- ==== Proof.Bridge.lean ====
/-
  The two programs' results are one function of the arguments.

  Both end in the same last stage of the per-particle sums and counts. A bucket of either program's scatter-sum is
  zero plus the sum, over the hits whose particle id is the bucket, of the hit's contribution; and the
  contributions agree hit by hit: `squared error · weight` for the sums, `weight` for the counts
  (`PerHit.werrArr_apply`, `PerHit.wgtArr_apply` on the kernel's side; `PerHit.sqerr_hit`, `PerHit.weight_hit` on
  the reference's). No finiteness is used: a product with the weight 0 or 1, or with an entry 0 or 1 of the
  group-indicator matrix, is exact on all of the extended reals.
-/
import proofs.«100011_j45432164057703_2_alg».proof.Proof.KPerHit
import proofs.«100011_j45432164057703_2_alg».proof.Proof.RPerHit

set_option maxRecDepth 16384

noncomputable section

open scoped BigOperators

namespace Cert.Bridge

open Idealize.ShloMosaic Idealize.ShloMosaic.ValueIdx Cert.HitSpec

variable (a3 a6 : (⟨2, ![5000000, 6]⟩ : Shape).Idx → EReal) (a5 a7 : (⟨1, ![5000000]⟩ : Shape).Idx → BitVec 32)

/-- The weighted-error array the kernel leaves, from the arguments. -/
abbrev werr : FVec Ideal Cert.KernelIdeal.S78125x64 .f32 :=
  Cert.KernelIdeal.Arrays.werrArr
    (shapeCast Cert.KernelIdeal.S78125x384 a3 Cert.KernelIdeal.Gen.shapeCasts_S5000000x6_S78125x384)
    (shapeCast Cert.KernelIdeal.S78125x384 a6 Cert.KernelIdeal.Gen.shapeCasts_S5000000x6_S78125x384)
    Cert.KernelIdeal.Entry.onesMat
    (shapeCast Cert.KernelIdeal.S78125x64 a5 Cert.KernelIdeal.Gen.shapeCasts_S5000000_S78125x64)
    (shapeCast Cert.KernelIdeal.S78125x64 a7 Cert.KernelIdeal.Gen.shapeCasts_S5000000_S78125x64)
/-- The weight array the kernel leaves, from the arguments. -/
abbrev wgt : FVec Ideal Cert.KernelIdeal.S78125x64 .f32 :=
  Cert.KernelIdeal.Arrays.wgtArr
    (shapeCast Cert.KernelIdeal.S78125x64 a5 Cert.KernelIdeal.Gen.shapeCasts_S5000000_S78125x64)
    (shapeCast Cert.KernelIdeal.S78125x64 a7 Cert.KernelIdeal.Gen.shapeCasts_S5000000_S78125x64)

/-- Hit `a` of the flattened weighted-error array is the reference's `error · weight` there. -/
theorem werr_hit (a : Fin 5000000) :
    Cert.KernelIdeal.Tail.stacked (werr a3 a6 a5 a7) (wgt a5 a7) (ix2 a (0 : Fin 2))
      = mulf (F := Ideal) (s := Cert.ReferenceIdeal.S5000000) (φ := .f32) (Cert.ReferenceIdeal.HostRun.sqerr (F := Ideal) a3 a6) (Cert.ReferenceIdeal.HostRun.weight (F := Ideal) a5 a7) (ix1 a) := by
  have hr : a.val / 64 < 78125 := by have := a.isLt; omega
  have hq : a.val % 64 < 64 := Nat.mod_lt _ (by decide)
  have hn : a.val = 64 * (⟨a.val / 64, hr⟩ : Fin 78125).val + (⟨a.val % 64, hq⟩ : Fin 64).val := by
    show a.val = 64 * (a.val / 64) + a.val % 64; omega
  rw [Cert.KernelIdeal.PerHit.stacked_col0, Cert.KernelIdeal.PerHit.flat_apply _ a ⟨a.val / 64, hr⟩ ⟨a.val % 64, hq⟩ hn]
  show Cert.KernelIdeal.Arrays.werrArr
      (shapeCast Cert.KernelIdeal.S78125x384 a3 Cert.KernelIdeal.Gen.shapeCasts_S5000000x6_S78125x384)
      (shapeCast Cert.KernelIdeal.S78125x384 a6 Cert.KernelIdeal.Gen.shapeCasts_S5000000x6_S78125x384)
      Cert.KernelIdeal.Entry.onesMat
      (shapeCast Cert.KernelIdeal.S78125x64 a5 Cert.KernelIdeal.Gen.shapeCasts_S5000000_S78125x64)
      (shapeCast Cert.KernelIdeal.S78125x64 a7 Cert.KernelIdeal.Gen.shapeCasts_S5000000_S78125x64) (ix2 ⟨a.val / 64, hr⟩ ⟨a.val % 64, hq⟩) = _
  rw [Cert.KernelIdeal.PerHit.werrArr_apply a3 a6 a5 a7 ⟨a.val / 64, hr⟩ ⟨a.val % 64, hq⟩ a hn, mulf_apply,
    Cert.ReferenceIdeal.PerHit.sqerr_hit, Cert.ReferenceIdeal.PerHit.weight_hit]

/-- Hit `a` of the flattened weight array is the reference's weight there. -/
theorem wgt_hit (a : Fin 5000000) :
    Cert.KernelIdeal.Tail.stacked (werr a3 a6 a5 a7) (wgt a5 a7) (ix2 a (1 : Fin 2))
      = Cert.ReferenceIdeal.HostRun.weight (F := Ideal) a5 a7 (ix1 a) := by
  have hr : a.val / 64 < 78125 := by have := a.isLt; omega
  have hq : a.val % 64 < 64 := Nat.mod_lt _ (by decide)
  have hn : a.val = 64 * (⟨a.val / 64, hr⟩ : Fin 78125).val + (⟨a.val % 64, hq⟩ : Fin 64).val := by
    show a.val = 64 * (a.val / 64) + a.val % 64; omega
  rw [Cert.KernelIdeal.PerHit.stacked_col1, Cert.KernelIdeal.PerHit.flat_apply _ a ⟨a.val / 64, hr⟩ ⟨a.val % 64, hq⟩ hn]
  show Cert.KernelIdeal.Arrays.wgtArr
      (shapeCast Cert.KernelIdeal.S78125x64 a5 Cert.KernelIdeal.Gen.shapeCasts_S5000000_S78125x64)
      (shapeCast Cert.KernelIdeal.S78125x64 a7 Cert.KernelIdeal.Gen.shapeCasts_S5000000_S78125x64) (ix2 ⟨a.val / 64, hr⟩ ⟨a.val % 64, hq⟩) = _
  rw [Cert.KernelIdeal.PerHit.wgtArr_apply a5 a7 ⟨a.val / 64, hr⟩ ⟨a.val % 64, hq⟩ a hn,
    Cert.ReferenceIdeal.PerHit.weight_hit]

/-- The per-particle sums agree. -/
theorem sums_eq :
    Cert.KernelIdeal.Tail.column0 (Cert.KernelIdeal.Tail.buckets (werr a3 a6 a5 a7) (wgt a5 a7) a5)
      = Cert.ReferenceIdeal.HostRun.bucketSum (F := Ideal) a5
          (mulf (F := Ideal) (s := Cert.ReferenceIdeal.S5000000) (φ := .f32) (Cert.ReferenceIdeal.HostRun.sqerr (F := Ideal) a3 a6) (Cert.ReferenceIdeal.HostRun.weight (F := Ideal) a5 a7)) := by
  funext i
  obtain ⟨p, rfl⟩ : ∃ p : Fin 50000, i = ix1 p := ⟨i 0, eq_ix1 i⟩
  rw [Cert.KernelIdeal.PerHit.column0_apply, Cert.KernelIdeal.PerHit.buckets_apply, Cert.ReferenceIdeal.PerHit.bucketSum_apply]
  refine congrArg (_ + ·) (Finset.sum_congr rfl fun i _ => ?_)
  obtain ⟨a, rfl⟩ : ∃ a : Fin 5000000, i = ix1 a := ⟨i 0, eq_ix1 i⟩
  rw [show Cert.KernelIdeal.Tail.stacked (werr a3 a6 a5 a7) (wgt a5 a7) (ix2 ((ix1 a : (⟨1, ![5000000]⟩ : Shape).Idx) 0) (0 : Fin 2)) = _ from werr_hit a3 a6 a5 a7 a]

/-- The per-particle counts agree. -/
theorem counts_eq :
    Cert.KernelIdeal.Tail.column1 (Cert.KernelIdeal.Tail.buckets (werr a3 a6 a5 a7) (wgt a5 a7) a5)
      = Cert.ReferenceIdeal.HostRun.bucketSum (F := Ideal) a5 (Cert.ReferenceIdeal.HostRun.weight (F := Ideal) a5 a7) := by
  funext i
  obtain ⟨p, rfl⟩ : ∃ p : Fin 50000, i = ix1 p := ⟨i 0, eq_ix1 i⟩
  rw [Cert.KernelIdeal.PerHit.column1_apply, Cert.KernelIdeal.PerHit.buckets_apply, Cert.ReferenceIdeal.PerHit.bucketSum_apply]
  refine congrArg (_ + ·) (Finset.sum_congr rfl fun i _ => ?_)
  obtain ⟨a, rfl⟩ : ∃ a : Fin 5000000, i = ix1 a := ⟨i 0, eq_ix1 i⟩
  rw [show Cert.KernelIdeal.Tail.stacked (werr a3 a6 a5 a7) (wgt a5 a7) (ix2 ((ix1 a : (⟨1, ![5000000]⟩ : Shape).Idx) 0) (1 : Fin 2)) = _ from wgt_hit a3 a6 a5 a7 a]

/-- The kernel's result and the reference's are one function of the four arguments they read. -/
theorem result_eq :
    Cert.KernelIdeal.Tail.result (werr a3 a6 a5 a7) (wgt a5 a7) a5 = Cert.ReferenceIdeal.HostRun.result (F := Ideal) a3 a5 a6 a7 := by
  unfold Cert.KernelIdeal.Tail.result Cert.ReferenceIdeal.HostRun.result
  rw [sums_eq, counts_eq]

end Cert.Bridge

end
-- ==== Proof.lean ====
/-
  The certificate: an object-condensation track loss, computed by a kernel over hits packed 64 to a row, equals its
  reference.

  Both programs weight each hit's squared error (the sum over six track parameters of `(pred − track)²`) by a
  0/1 validity weight, scatter-sum `error · weight` and `weight` over the particle ids into 50000 buckets, and
  return 100 times the mean, over the occupied buckets, of the bucket means. The kernel packs 64 hits to a row
  ([5000000, 6] viewed as [78125, 384]), squares the differences row by row, and recovers the 64 per-hit sums of a
  row by a product with a block-diagonal matrix of ones; it works on blocks of 2048 rows over a grid of 39 points,
  the last block overhanging the 78125 rows, and masks the rows past the end.

  * The three frames: the word-level kernel's from a run that names no staging contents (`Kernel.Body.frame`), the
    idealized kernel's from the run that names every array (`KernelIdeal.Body.frame`), the reference's from its
    run, which is host operations only (`HostRun.run`).
  * The idealization rewrote nothing.
  * The value claim: the idealized kernel's result is the host tail applied to the two result arrays the write-backs
    leave (`Tail.result_eq`), those arrays are whole-array functions of the arguments (`Arrays.final5`,
    `Arrays.final6` with `Entry.V_v0 … V_v12`), and that is the reference's result (`Bridge.result_eq`).
-/
import proofs.«100011_j45432164057703_2_alg».proof.Defs
import proofs.«100011_j45432164057703_2_alg».proof.Proof.Gen.Kernel
import proofs.«100011_j45432164057703_2_alg».proof.Proof.Gen.KernelIdeal
import proofs.«100011_j45432164057703_2_alg».proof.Proof.Gen.ReferenceIdeal
import proofs.«100011_j45432164057703_2_alg».proof.Proof.Gen.Pre_finite_inputs
import proofs.«100011_j45432164057703_2_alg».proof.Proof.KernelFrame
import proofs.«100011_j45432164057703_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- What the idealized kernel's result buffer ends holding, on core `c`. -/
def kernelValue (m : (ℓ : Loc Cert.KernelIdeal.nD Cert.KernelIdeal.τ Cert.KernelIdeal.sig) → Buf (Elt Ideal) ℓ)
    (c : Dev Cert.KernelIdeal.nD) : Buf (Elt Ideal) ((c.tc : Thread Cert.KernelIdeal.nD Cert.KernelIdeal.τ).loc Cert.KernelIdeal.main_v36) :=
  Cert.KernelIdeal.Tail.result
    (Cert.KernelIdeal.Arrays.werrArr (Cert.KernelIdeal.Gen.V m c Cert.KernelIdeal.main_v0) (Cert.KernelIdeal.Gen.V m c Cert.KernelIdeal.main_v1)
      (Cert.KernelIdeal.Gen.V m c Cert.KernelIdeal.main_v12) (Cert.KernelIdeal.Gen.V m c Cert.KernelIdeal.main_v2) (Cert.KernelIdeal.Gen.V m c Cert.KernelIdeal.main_v3))
    (Cert.KernelIdeal.Arrays.wgtArr (Cert.KernelIdeal.Gen.V m c Cert.KernelIdeal.main_v2) (Cert.KernelIdeal.Gen.V m c Cert.KernelIdeal.main_v3))
    (m ((c.tc : Thread Cert.KernelIdeal.nD Cert.KernelIdeal.τ).loc Cert.KernelIdeal.main_arg5))

/-- It is the reference's function of the four arguments both programs read. -/
theorem kernelValue_eq (m : (ℓ : Loc Cert.KernelIdeal.nD Cert.KernelIdeal.τ Cert.KernelIdeal.sig) → Buf (Elt Ideal) ℓ)
    (c : Dev Cert.KernelIdeal.nD) :
    kernelValue m c = Cert.ReferenceIdeal.HostRun.result (F := Ideal)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) := by
  unfold kernelValue
  rw [Cert.KernelIdeal.Entry.V_v0, Cert.KernelIdeal.Entry.V_v1, Cert.KernelIdeal.Entry.V_v2, Cert.KernelIdeal.Entry.V_v3,
    Cert.KernelIdeal.Entry.V_v12]
  exact Cert.Bridge.result_eq _ _ _ _

theorem frame_k : Cert.frame_Kernel := fun m ρ _ => Cert.Kernel.Body.frame (F := Bits) m ρ
theorem frame_ki : Cert.frame_KernelIdeal := fun m ρ _ => Cert.KernelIdeal.Body.frame m ρ
theorem frame_ri : Cert.frame_ReferenceIdeal := fun m ρ _ =>
  (θ_run Cert.ReferenceIdeal.defs _ _).mono (fun _ h c => (h c).2) (Cert.ReferenceIdeal.HostRun.run (F := Ideal) m ρ)

/-- The idealized kernel's run with its result named and its arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v36) = kernelValue m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c =>
    ⟨((h c).2 Cert.KernelIdeal.main_v36 (Pipeline.mem_restRefs_of Cert.KernelIdeal.main_v36 (by decide) (by decide))).trans
        (Cert.KernelIdeal.Tail.result_eq m c),
      ((h c).2 Cert.KernelIdeal.main_arg0 (Pipeline.mem_restRefs_of Cert.KernelIdeal.main_arg0 (by decide) (by decide))).trans
        (Cert.KernelIdeal.Gen.W_main_arg0 m (Cert.KernelIdeal.Body.dats m) c),
      ((h c).2 Cert.KernelIdeal.main_arg1 (Pipeline.mem_restRefs_of Cert.KernelIdeal.main_arg1 (by decide) (by decide))).trans
        (Cert.KernelIdeal.Gen.W_main_arg1 m (Cert.KernelIdeal.Body.dats m) c),
      ((h c).2 Cert.KernelIdeal.main_arg2 (Pipeline.mem_restRefs_of Cert.KernelIdeal.main_arg2 (by decide) (by decide))).trans
        (Cert.KernelIdeal.Gen.W_main_arg2 m (Cert.KernelIdeal.Body.dats m) c),
      ((h c).2 Cert.KernelIdeal.main_arg3 (Pipeline.mem_restRefs_of Cert.KernelIdeal.main_arg3 (by decide) (by decide))).trans
        (Cert.KernelIdeal.Gen.W_main_arg3 m (Cert.KernelIdeal.Body.dats m) c),
      ((h c).2 Cert.KernelIdeal.main_arg4 (Pipeline.mem_restRefs_of Cert.KernelIdeal.main_arg4 (by decide) (by decide))).trans
        (Cert.KernelIdeal.Gen.W_main_arg4 m (Cert.KernelIdeal.Body.dats m) c),
      ((h c).2 Cert.KernelIdeal.main_arg5 (Pipeline.mem_restRefs_of Cert.KernelIdeal.main_arg5 (by decide) (by decide))).trans
        (Cert.KernelIdeal.Gen.W_main_arg5 m (Cert.KernelIdeal.Body.dats m) c),
      ((h c).2 Cert.KernelIdeal.main_arg6 (Pipeline.mem_restRefs_of Cert.KernelIdeal.main_arg6 (by decide) (by decide))).trans
        (Cert.KernelIdeal.Gen.W_main_arg6 m (Cert.KernelIdeal.Body.dats m) c),
      ((h c).2 Cert.KernelIdeal.main_arg7 (Pipeline.mem_restRefs_of Cert.KernelIdeal.main_arg7 (by decide) (by decide))).trans
        (Cert.KernelIdeal.Gen.W_main_arg7 m (Cert.KernelIdeal.Body.dats m) c)⟩)
    (Cert.KernelIdeal.Body.run_main m ρ)

theorem algebraic : Cert.algebraic_KernelIdeal_ReferenceIdeal := by
  intro m ρ m' ρ' hpre hagree
  refine ⟨kernelValue m, ?_, ?_⟩
  · exact kernel_run m ρ
  · refine (θ_run Cert.ReferenceIdeal.defs _ _).mono (fun _ h c => ⟨(h c).1.trans ?_, (h c).2⟩)
      (Cert.ReferenceIdeal.HostRun.run (F := Ideal) m' ρ')
    rw [(hagree c).2.2.2.1, (hagree c).2.2.2.2.2.1, (hagree c).2.2.2.2.2.2.1, (hagree c).2.2.2.2.2.2.2]
    exact (kernelValue_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
